-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1x256 : Shape := ⟨2, ![1, 256]⟩
abbrev S256x256 : Shape := ⟨2, ![256, 256]⟩
abbrev S256x1 : Shape := ⟨2, ![256, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S100000x256 .f32) (main_arg1 : FVec F S1x256 .f32) (main_arg2 : FVec F S256x256 .f32) (main_arg3 : FVec F S256x1 .f32) (main_arg4 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S100000x256 : Shape := ⟨2, ![100000, 256]⟩
abbrev S1x256 : Shape := ⟨2, ![1, 256]⟩
abbrev S256x256 : Shape := ⟨2, ![256, 256]⟩
abbrev S256x1 : Shape := ⟨2, ![256, 1]⟩
abbrev S100000x1 : Shape := ⟨2, ![100000, 1]⟩
abbrev S1x1 : Shape := ⟨2, ![1, 1]⟩
abbrev S5000x256 : Shape := ⟨2, ![5000, 256]⟩
abbrev S5000x1 : Shape := ⟨2, ![5000, 1]⟩
abbrev S1 : Shape := ⟨1, ![1]⟩
abbrev S256 : Shape := ⟨1, ![256]⟩
abbrev S1x100000 : Shape := ⟨2, ![1, 100000]⟩

abbrev nBuf : Space → Nat
  | .hbm => 13
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S1x256, .f32⟩
  | .hbm, ⟨2, _⟩ => ⟨S256x256, .f32⟩
  | .hbm, ⟨3, _⟩ => ⟨S256x1, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S100000x1, .f32⟩
  | .hbm, ⟨8, _⟩ => ⟨S1x256, .f32⟩
  | .hbm, ⟨9, _⟩ => ⟨S1x1, .f32⟩
  | .hbm, ⟨10, _⟩ => ⟨S1x100000, .f32⟩
  | .hbm, ⟨11, _⟩ => ⟨S1x100000, .f32⟩
  | .hbm, ⟨12, _⟩ => ⟨S1x100000, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256x1, .f32⟩
  | .local _ .vmem, ⟨4, _⟩ => ⟨S1x256, .f32⟩
  | .local _ .vmem, ⟨5, _⟩ => ⟨S5000x1, .f32⟩
  | .local _ .vmem, ⟨6, _⟩ => ⟨S5000x1, .f32⟩
  | .local _ .vmem, ⟨7, _⟩ => ⟨S1x256, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x256, .f32⟩
  | .local _ .vmem, ⟨12, _⟩ => ⟨S1x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v55 : BitVec 1 := Scalar.cmpi .eq arg0 c19_i32
  let v56 : BitVec 32 := Scalar.extui v55
  let c0_i32_33 : BitVec 32 := 0#32
  let v57 : BitVec 1 := Scalar.cmpi .ne v56 c0_i32_33
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  transposes_S256x256_S256x256_1_0 : S256x256.Transposes [1, 0] S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  reduces_S5000x1_S1 : S5000x1.Reduces [0] S1
  shapeCasts_S1_S1x1 : S1.ShapeCasts S1x1
  broadcasts_S1x1_S5000x1 : S1x1.Broadcasts S5000x1
  broadcasts_S5000x1_S5000x256 : S5000x1.Broadcasts S5000x256
  reduces_S5000x256_S256 : S5000x256.Reduces [0] S256
  shapeCasts_S256_S1x256 : S256.ShapeCasts S1x256
  broadcasts_S1x1_S1x256 : S1x1.Broadcasts S1x256
  shapeCasts_S100000x1_S1x100000 : S100000x1.ShapeCasts S1x100000
  bcast_S1x1_S1x100000_0_1 : S1x1.BroadcastsInDim S1x100000 (![0, 1] : Fin 2 → Fin S1x100000.rank)
  dot_S1x256_S256x256_S1x256_1_0_0_1_n_n_wf : DotDims.WF S1x256 S256x256 S1x256 [1] [0] [0] [1] [] []
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S5000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100000x256 : Shape := ⟨2, ![100000, 256]⟩
abbrev S1x256 : Shape := ⟨2, ![1, 256]⟩
abbrev S256x256 : Shape := ⟨2, ![256, 256]⟩
abbrev S256x1 : Shape := ⟨2, ![256, 1]⟩
abbrev S100000x1 : Shape := ⟨2, ![100000, 1]⟩
abbrev S1x100000 : Shape := ⟨2, ![1, 100000]⟩
abbrev S_ : Shape := ⟨0, ![]⟩
abbrev S1 : Shape := ⟨1, ![1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1x256, .f32⟩
  | .hbm, ⟨2, _⟩ => ⟨S256x256, .f32⟩
  | .hbm, ⟨3, _⟩ => ⟨S256x1, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S100000x256, .f32⟩
  | .hbm, ⟨8, _⟩ => ⟨S100000x256, .f32⟩
  | .hbm, ⟨9, _⟩ => ⟨S100000x256, .f32⟩
  | .hbm, ⟨10, _⟩ => ⟨S100000x256, .f32⟩
  | .hbm, ⟨11, _⟩ => ⟨S100000x1, .f32⟩
  | .hbm, ⟨12, _⟩ => ⟨S1x100000, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S1x100000, .f32⟩
  | .hbm, ⟨20, _⟩ => ⟨S1x100000, .f32⟩
  | .hbm, ⟨21, _⟩ => ⟨S1x100000, .f32⟩
  | .hbm, ⟨22, _⟩ => ⟨S_, .f32⟩
  | .hbm, ⟨23, _⟩ => ⟨S1, .f32⟩
  | .hbm, ⟨24, _⟩ => ⟨S1x1, .f32⟩
  | .hbm, ⟨25, _⟩ => ⟨S1x1, .f32⟩
  | .hbm, ⟨26, _⟩ => ⟨S1x100000, .f32⟩
  | .hbm, ⟨27, _⟩ => ⟨S1x100000, .f32⟩
  | .hbm, ⟨28, _⟩ => ⟨S1x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]

class Facts₀ : Prop where
  transposes_S256x256_S256x256_1_0 : S256x256.Transposes [1, 0] S256x256
  bcast_S1x256_S100000x256_0_1 : S1x256.BroadcastsInDim S100000x256 (![0, 1] : Fin 2 → Fin S100000x256.rank)
  shapeCasts_S100000x1_S1x100000 : S100000x1.ShapeCasts S1x100000
  reducesTo_S1x100000_S1_d1 : S1x100000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x100000_0_1 : S1x1.BroadcastsInDim S1x100000 (![0, 1] : Fin 2 → Fin S1x100000.rank)
  dot_S1x256_S256x256_S1x256_1_0_0_1_n_n_wf : DotDims.WF S1x256 S256x256 S1x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []
  dot_S1x100000_S100000x256_S1x256_1_0_0_1_n_n_wf : DotDims.WF S1x100000 S100000x256 S1x256 [1] [0] [0] [1] [] []

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S1x100000_S100000x256_S1x256_1_0_0_1_n_n : DotDims S1x100000 S100000x256 S1x256 where
  lhsContracting := [1]
  rhsContracting := [0]
  lhsNonContracting := [0]
  rhsNonContracting := [1]
  lhsBatch := []
  rhsBatch := []
  wf := dot_S1x100000_S100000x256_S1x256_1_0_0_1_n_n_wf

class Facts : Prop extends Facts₀ where

variable [Facts]
-- ==== Proof.KPieces.lean ====
/-
  What the kernel body leaves behind at one grid point, as values.

  The body's stores are covering stores of whole buffers, so what a buffer holds after the body is the value of the last
  store into it, and a value loaded back from a buffer the body has already stored into is that stored value. Read this
  way, each of the three cases of the body (first point, a middle point, last point) leaves in each buffer one of the
  body's pure payload terms of the point's input blocks and of the four carried cells (bound, sum of exponentials,
  weighted column sums, plain column sums) as the point before left them.
-/
import proofs.«159929_j42305427865723_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At the first point (the carried cells are reset first) the body leaves the block's scores, stored whole into the score column's buffer. -/
theorem outA4 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S5000x256 .f32) (x1 : Vec F S256x256 .f32) (x2 : Vec F S256x1 .f32) (x3 : Vec F S1x256 .f32) :
    out0_A_4 c i arg1 harg1 arg2 harg2 arg3 harg3 arg4 harg4 arg5 harg5 arg6 harg6 arg7 harg7 arg8 harg8 arg9 harg9 arg10 harg10 arg11 harg11 hc0 hc1 x0 x1 x2 x3 = k0_pay11 x0 x1 x3 x2 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  first | rw [View.canon_unit_zero hz] | rw [View.canon_cons_unit_zero (S := S5000x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the first point (the carried cells are reset first) the body leaves the bound: the old bound (or −∞ at the first point) against the block's largest score. -/
theorem soutA0 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S5000x256 .f32) (x1 : Vec F S256x256 .f32) (x2 : Vec F S256x1 .f32) (x3 : Vec F S1x256 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 = k0_pay2 (k0_pay12 x0 x1 x3 x2 k0_pay7) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  first | rw [View.canon_unit_zero hz] | rw [View.canon_cons_unit_zero (S := S1x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the first point (the carried cells are reset first) the body leaves the rescaled sum of exponentials. -/
theorem soutA1 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S5000x256 .f32) (x1 : Vec F S256x256 .f32) (x2 : Vec F S256x1 .f32) (x3 : Vec F S1x256 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 = k0_pay1 (k0_pay13 x0 x1 x3 x2 k0_pay7 k0_pay7 k0_pay8) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  first | rw [View.canon_unit_zero hz] | rw [View.canon_cons_unit_zero (S := S1x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the first point (the carried cells are reset first) the body leaves the score-weighted column sums, added onto what was there. -/
theorem soutA2 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S5000x256 .f32) (x1 : Vec F S256x256 .f32) (x2 : Vec F S256x1 .f32) (x3 : Vec F S1x256 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 = k0_pay3 x0 (k0_pay11 x0 x1 x3 x2) k0_pay9 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  first | rw [View.canon_unit_zero hz] | rw [View.canon_cons_unit_zero (S := S1x256) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the first point (the carried cells are reset first) the body leaves the plain column sums, added onto what was there. -/
theorem soutA3 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S5000x256 .f32) (x1 : Vec F S256x256 .f32) (x2 : Vec F S256x1 .f32) (x3 : Vec F S1x256 .f32) :
    sout0_A_3 c i arg1 harg1 arg2 harg2 arg3 harg3 arg4 harg4 arg5 harg5 arg6 harg6 arg7 harg7 arg8 harg8 arg9 harg9 arg10 harg10 arg11 harg11 hc0 hc1 x0 x1 x2 x3 = k0_pay4 x0 k0_pay10 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  first | rw [View.canon_unit_zero hz] | rw [View.canon_cons_unit_zero (S := S1x256) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At a middle point the body leaves the block's scores, stored whole into the score column's buffer. -/
theorem outB4 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    out0_B_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay11 x0 x1 x3 x2 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  first | rw [View.canon_unit_zero hz] | rw [View.canon_cons_unit_zero (S := S5000x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At a middle point the body leaves the bound: the old bound (or −∞ at the first point) against the block's largest score. -/
theorem soutB0 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay2 (k0_pay12 x0 x1 x3 x2 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  first | rw [View.canon_unit_zero hz] | rw [View.canon_cons_unit_zero (S := S1x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At a middle point the body leaves the rescaled sum of exponentials. -/
theorem soutB1 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay1 (k0_pay13 x0 x1 x3 x2 xs0 xs0 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  first | rw [View.canon_unit_zero hz] | rw [View.canon_cons_unit_zero (S := S1x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At a middle point the body leaves the score-weighted column sums, added onto what was there. -/
theorem soutB2 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay3 x0 (k0_pay11 x0 x1 x3 x2) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  first | rw [View.canon_unit_zero hz] | rw [View.canon_cons_unit_zero (S := S1x256) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At a middle point the body leaves the plain column sums, added onto what was there. -/
theorem soutB3 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    sout0_B_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay4 x0 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  first | rw [View.canon_unit_zero hz] | rw [View.canon_cons_unit_zero (S := S1x256) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the last point the body leaves the block's scores, stored whole into the score column's buffer. -/
theorem outC4 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    out0_C_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay11 x0 x1 x3 x2 := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  first | rw [View.canon_unit_zero hz] | rw [View.canon_cons_unit_zero (S := S5000x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the last point the body leaves the weighted sum: the finished score-weighted sums minus the log-sum-exp times the plain sums. -/
theorem outC5 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay6 (k0_pay2 (k0_pay12 x0 x1 x3 x2 xs0)) (k0_pay1 (k0_pay13 x0 x1 x3 x2 xs0 xs0 xs1)) (k0_pay3 x0 (k0_pay11 x0 x1 x3 x2) xs2) (k0_pay4 x0 xs3) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  first | rw [View.canon_unit_zero hz] | rw [View.canon_cons_unit_zero (S := S1x256) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

/-- At the last point the body leaves the log-sum-exp: the finished bound plus the logarithm of the finished sum. -/
theorem outC6 (c : Dev nD) (i : grid0.Coords) (arg1 : Memref sig .tc .vmem S5000x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S1x256 .f32) (harg4 : arg4.IsWhole) (arg5 : Memref sig .tc .vmem S5000x1 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S5000x256 .f32) (x1 : Vec F S256x256 .f32) (x2 : Vec F S256x1 .f32) (x3 : Vec F S1x256 .f32) (xs0 : Vec F S1x1 .f32) (xs1 : Vec F S1x1 .f32) (xs2 : Vec F S1x256 .f32) (xs3 : Vec F S1x256 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3 = k0_pay5 (k0_pay2 (k0_pay12 x0 x1 x3 x2 xs0)) (k0_pay1 (k0_pay13 x0 x1 x3 x2 xs0 xs0 xs1)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  first | rw [View.canon_unit_zero hz] | rw [View.canon_cons_unit_zero (S := S1x1) hz]
  simp only [View.readCov_unit_zero (S := S1x1) _ hz, View.readCov_unit_zero (S := S1x256) _ hz, View.readCov_unit_zero (S := S5000x1) _ hz, View.readAt_eq_ld, harg1.read_unread, harg2.read_unread, harg3.read_unread, harg4.read_unread, harg8.read_unread, harg9.read_unread, harg10.read_unread, harg11.read_unread, View.ld_unit_zero (S := S5000x256) hz, View.ld_unit_zero (S := S256x256) hz, View.ld_unit_zero (S := S256x1) hz, View.ld_unit_zero (S := S1x256) hz, View.ld_unit_zero (S := S1x1) hz]

end Cert.KernelIdeal.Pieces

end
-- ==== Proof.Spec.lean ====
/-
  Additive attention with log-softmax weights, as plain functions of the argument arrays over the extended reals.

  A row `r` of the 100000×256 input has the score `a r = ∑ₖ tanh (∑ⱼ x(r,j)·Wm(j,k) + p k) · V(k)`, where `p` is the
  projected context `p k = ∑ⱼ hc(j)·W1(k,j)`. The results are the log-softmax of the scores,
  `a r − log ∑ₛ exp (a s)`, and the sum of the rows weighted by it.

  Two ways of computing the log-sum-exp are written down here. The streaming one walks the rows in 20 blocks of 5000
  and carries four quantities: a running bound `m`, the sum `l = ∑ exp (a s − m)` over the rows seen so far (rescaled
  by `exp (m_old − m_new)` whenever the bound moves), and the two linear sums `∑ a s · x(s,h)` and `∑ x(s,h)`, which
  need no rescaling; it ends with `lse = m + log l`. The one-pass one subtracts the overall maximum first.
-/
import Idealize.ShloMosaic.PureOps.Ideal
import Idealize.ShloMosaic.Lib.ValueIdx

noncomputable section

open scoped BigOperators

namespace Cert.Spec

open Idealize.ShloMosaic Idealize.ShloMosaic.ValueIdx

/-- −∞, as the f32 pattern of the infinity denotes it. -/
abbrev negInf : EReal := Ideal.ofBits .f32 0xFF800000#32
/-- 0, as the f32 zero pattern denotes it. -/
abbrev zero : EReal := Ideal.ofBits .f32 0x00000000#32

/-- The projected context: `p k = ∑ⱼ hc(0,j) · W1(k,j)` (the context row times the transposed weight). -/
def proj (hc : (⟨2, ![1, 256]⟩ : Shape).Idx → EReal) (W1 : (⟨2, ![256, 256]⟩ : Shape).Idx → EReal) (k : Fin 256) : EReal :=
  ∑ j : Fin 256, hc (ix2 0 j) * W1 (ix2 k j)

/-- The score of one row `xr`: `∑ₖ tanh (∑ⱼ xr j · Wm(j,k) + p k) · V(k,0)`. -/
def score (xr : Fin 256 → EReal) (Wm : (⟨2, ![256, 256]⟩ : Shape).Idx → EReal) (p : Fin 256 → EReal)
    (V : (⟨2, ![256, 1]⟩ : Shape).Idx → EReal) : EReal :=
  ∑ k : Fin 256, Ideal.tanh ((∑ j : Fin 256, xr j * Wm (ix2 j k)) + p k) * V (ix2 k 0)

/-- The scores of all rows of `X`. -/
def scores (X : (⟨2, ![100000, 256]⟩ : Shape).Idx → EReal) (Wm : (⟨2, ![256, 256]⟩ : Shape).Idx → EReal) (p : Fin 256 → EReal)
    (V : (⟨2, ![256, 1]⟩ : Shape).Idx → EReal) (r : Fin 100000) : EReal :=
  score (fun j => X (ix2 r j)) Wm p V

/-- Row `p` of block `t` is row `5000·t + p`. -/
def rowOf (t : Fin 20) (p : Fin 5000) : Fin 100000 := ⟨5000 * t.val + p.val, by have := t.isLt; have := p.isLt; omega⟩

/-! ## One block of the streaming pass -/

/-- The bound after a block with scores `a`: the old bound or the block's largest score. -/
def stepM (a : Fin 5000 → EReal) (m0 : EReal) : EReal := max m0 ((Finset.univ : Finset (Fin 5000)).fold max negInf a)

/-- The rescaled sum of exponentials after the block. -/
def stepL (a : Fin 5000 → EReal) (m0 l0 : EReal) : EReal :=
  l0 * Ideal.exp (m0 - stepM a m0) + ∑ p : Fin 5000, Ideal.exp (a p - stepM a m0)

/-- The score-weighted column sums after the block. -/
def stepS1 (a : Fin 5000 → EReal) (xb : Fin 5000 → Fin 256 → EReal) (s : Fin 256 → EReal) (h : Fin 256) : EReal :=
  s h + ∑ p : Fin 5000, a p * xb p h

/-- The plain column sums after the block. -/
def stepS2 (xb : Fin 5000 → Fin 256 → EReal) (s : Fin 256 → EReal) (h : Fin 256) : EReal :=
  s h + ∑ p : Fin 5000, xb p h

/-- What the streaming pass carries from block to block. -/
structure St where
  m : EReal
  l : EReal
  s1 : Fin 256 → EReal
  s2 : Fin 256 → EReal

/-- Before the first block: the bound −∞, the sums zero. -/
def init : St := ⟨negInf, zero, fun _ => zero, fun _ => zero⟩

/-- One block. -/
def step (a : Fin 100000 → EReal) (x : Fin 100000 → Fin 256 → EReal) (t : Fin 20) (σ : St) : St :=
  ⟨stepM (fun p => a (rowOf t p)) σ.m,
   stepL (fun p => a (rowOf t p)) σ.m σ.l,
   stepS1 (fun p => a (rowOf t p)) (fun p h => x (rowOf t p) h) σ.s1,
   stepS2 (fun p h => x (rowOf t p) h) σ.s2⟩

/-- The carried quantities after block `n`. -/
def stAfter (a : Fin 100000 → EReal) (x : Fin 100000 → Fin 256 → EReal) : (n : ℕ) → n < 20 → St
  | 0, h => step a x ⟨0, h⟩ init
  | n + 1, h => step a x ⟨n + 1, h⟩ (stAfter a x n (Nat.lt_of_succ_lt h))

/-- The streaming log-sum-exp: bound plus logarithm of the rescaled sum, after the last block. -/
def kLse (a : Fin 100000 → EReal) (x : Fin 100000 → Fin 256 → EReal) : EReal :=
  (stAfter a x 19 (by decide)).m + Ideal.log (stAfter a x 19 (by decide)).l

/-- The streaming log-softmax. -/
def kAlpha (a : Fin 100000 → EReal) (x : Fin 100000 → Fin 256 → EReal) (r : Fin 100000) : EReal := a r - kLse a x

/-- The streaming weighted sum: `∑ a·x − lse · ∑ x`. -/
def kCt (a : Fin 100000 → EReal) (x : Fin 100000 → Fin 256 → EReal) (h : Fin 256) : EReal :=
  (stAfter a x 19 (by decide)).s1 h - kLse a x * (stAfter a x 19 (by decide)).s2 h

/-! ## The one-pass log-softmax -/

/-- The overall maximum (taken once more against −∞). -/
def refM (a : Fin 100000 → EReal) : EReal := max negInf ((Finset.univ : Finset (Fin 100000)).fold max negInf a)

/-- The sum of the shifted exponentials, from zero. -/
def refL (a : Fin 100000 → EReal) : EReal := zero + ∑ r : Fin 100000, Ideal.exp (a r - refM a)

/-- The log-softmax: shifted score minus the logarithm of the sum. -/
def refAlpha (a : Fin 100000 → EReal) (r : Fin 100000) : EReal := (a r - refM a) - Ideal.log (refL a)

/-- The rows weighted by the log-softmax and summed. -/
def refCt (a : Fin 100000 → EReal) (x : Fin 100000 → Fin 256 → EReal) (h : Fin 256) : EReal :=
  ∑ r : Fin 100000, refAlpha a r * x r h

end Cert.Spec

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibColOps.lean ====
/-
  Sums over the FIRST axis of an `[a, b]` array, and the two-step total a kernel writes as "sum each row keeping the
  axis, then sum the column of row sums keeping the axis": a reduction over the first axis read at column `u` is the
  sum over the rows of the entries of that column (the index the reduction puts the dropped coordinate back into is
  (k, u)); and the `[1, 1]` array obtained from an `[a, b]` array by summing over the second axis, viewing the
  `[a]` result as an `[a, 1]` column, summing that over the first axis and viewing the `[1]` result as `[1, 1]`,
  holds at its one index the double sum `∑ r, ∑ l` of the array's entries.
-/
import proofs.«159929_j42305427865723_1_alg».proof.Proof.LibRowOps

noncomputable section

namespace ColOps

open Idealize.ShloMosaic Idealize.ShloMosaic.ValueIdx

/-- The reduced index `u` with the first-axis coordinate `k` put back is (k, u). -/
theorem lift_col {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A sum over the first axis, at column `u`: the sum over the rows of that column's entries. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (u : Fin b) :
    multiReduction .add [0] ⟨1, ![b]⟩ src acc h hφ hacc (ix1 u) = ∑ k : Fin a, src (ix2 k u) := by
  refine (Ideal.multiReduction_add_single src acc h hφ hacc (ix1 u)).trans ?_
  exact Finset.sum_congr rfl fun k _ => congrArg src (lift_col h u k)

/-- Row sums kept as a column, then the column's sum kept as a `[1, 1]` array: at its one index, the double sum. -/
theorem total_keepdims {a b : ℕ} (src : FVec Ideal ⟨2, ![a, b]⟩ .f32) (acc₁ acc₂ : BitVec 32)
    (h₁ : (⟨2, ![a, b]⟩ : Shape).Reduces [1] (⟨1, ![a]⟩ : Shape)) (hφ₁ : FKind.Formats .f32)
    (hacc₁ : acc₁ = FKind.add.neutral .f32 hφ₁)
    (c₁ : (⟨1, ![a]⟩ : Shape).ShapeCasts ⟨2, ![a, 1]⟩)
    (h₂ : (⟨2, ![a, 1]⟩ : Shape).Reduces [0] (⟨1, ![1]⟩ : Shape)) (hφ₂ : FKind.Formats .f32)
    (hacc₂ : acc₂ = FKind.add.neutral .f32 hφ₂)
    (c₂ : (⟨1, ![1]⟩ : Shape).ShapeCasts ⟨2, ![1, 1]⟩) (i u : Fin 1) :
    shapeCast ⟨2, ![1, 1]⟩
        (multiReduction .add [0] ⟨1, ![1]⟩
          (shapeCast ⟨2, ![a, 1]⟩ (multiReduction .add [1] ⟨1, ![a]⟩ src acc₁ h₁ hφ₁ hacc₁) c₁) acc₂ h₂ hφ₂ hacc₂) c₂ (ix2 i u)
      = ∑ r : Fin a, ∑ l : Fin b, src (ix2 r l) := by
  refine (RowOps.shapeCast_a_a1_apply _ c₂ i u).trans ?_
  refine (colSum_apply _ acc₂ h₂ hφ₂ hacc₂ i).trans ?_
  refine Finset.sum_congr rfl fun r _ => ?_
  refine (RowOps.shapeCast_a_a1_apply _ c₁ r i).trans ?_
  exact RowOps.rowSum_apply src acc₁ h₁ hφ₁ hacc₁ r

end ColOps

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KPay.lean ====
/-
  The kernel body's pure values, read at an index over the extended reals.

  One block of 5000 rows x (p, j) of the input, the 256×256 weight Wm, the 256×1 column V and the projected context
  row c give the block's scores  a p = ∑ₖ tanh (∑ⱼ x (p, j) · Wm (j, k) + c k) · V k.  Every value the body stores is
  a pure function of what it loaded; read at one index each of them is the corresponding expression in the scores:
  the new running bound  max m (maxₚ a p),  the rescaled sum of exponentials, the two column sums
  s h + ∑ₚ a p · x (p, h)  and  s h + ∑ₚ x (p, h),  the final  m + log l  and  s₁ h − (m + log l) · s₂ h,  and the
  initial values −∞ and 0.
-/
import proofs.«159929_j42305427865723_1_alg».proof.Proof.Gen.KernelIdeal.Skeleton
import proofs.«159929_j42305427865723_1_alg».proof.Proof.Spec
import proofs.«159929_j42305427865723_1_alg».proof.Proof.LibPlainDot
import proofs.«159929_j42305427865723_1_alg».proof.Proof.LibRowOps
import proofs.«159929_j42305427865723_1_alg».proof.Proof.LibColOps
import proofs.«159929_j42305427865723_1_alg».proof.Proof.LibRowVector
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable (x0 : Vec Ideal S5000x256 .f32) (x1 : Vec Ideal S256x256 .f32) (x2 : Vec Ideal S256x1 .f32)
  (x3 : Vec Ideal S1x256 .f32)

/-- The score of row p of the block. -/
def bscore (p : Fin 5000) : EReal :=
  Cert.Spec.score (fun j => x0 (ix2 p j)) x1 (fun k => x3 (ix2 0 k)) x2

/-! ## The pointwise functions at an index -/

section Pointwise
variable {s : Shape} {φ : FTy}

/-- A hyperbolic tangent at an index is that of the element … -/
theorem tanh_apply (a : FVec Ideal s φ) (i : s.Idx) : tanh a i = Ideal.tanh (a i) := rfl
/-- … an exponential the exponential … -/
theorem exp_apply (a : FVec Ideal s φ) (i : s.Idx) : exp a i = Ideal.exp (a i) := rfl
/-- … and a logarithm the logarithm of the element. -/
theorem log_apply (a : FVec Ideal s φ) (i : s.Idx) : log a i = Ideal.log (a i) := rfl

end Pointwise

/-! ## Two layout facts: a maximum over the first axis, and a 1×1 array copied to a larger one -/

/-- A maximum over the first axis, at column u: the fold of max, from the accumulator's value, over the column. -/
theorem colMax_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (u : Fin b) :
    multiReduction .maximumf [0] ⟨1, ![b]⟩ src acc h hφ hacc (ix1 u)
      = (Finset.univ : Finset (Fin a)).fold max (Ideal.ofBits .f32 acc) (fun k => src (ix2 k u)) := by
  refine (Ideal.multiReduction_maximumf_single src acc h hφ hacc (ix1 u)).trans ?_
  have hf : (src ∘ h.lift (ix1 u)) = fun k : Fin a => src (ix2 k u) :=
    funext fun k => congrArg src (ColOps.lift_col h u k)
  exact congrArg (fun f => Finset.fold max (Ideal.ofBits .f32 acc) f (Finset.univ : Finset (Fin a))) hf

/-- A 1×1 array copied to an a×b array holds its one entry everywhere: both of its axes are unit axes. -/
theorem broadcastTo_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 0 0) :=
  broadcastTo_apply v h (ix2 p c) (ix2 0 0) (fun ax => match ax with
    | ⟨0, _⟩ => by
      show (0 : Nat) = if (1 : Nat) = 1 then 0 else _
      rw [if_pos rfl]
    | ⟨1, _⟩ => by
      show (0 : Nat) = if (1 : Nat) = 1 then 0 else _
      rw [if_pos rfl])

/-! ## The scores of the block -/

/-- The block times the weight, at (p, k): the sum over j of x (p, j) · Wm (j, k). -/
theorem xw_apply (p : Fin 5000) (k : Fin 256) :
    matmul (F := Ideal) dot_S5000x256_S256x256_S5000x256_1_0_0_1_n_n none (truncf .bf16 x0 bitsLt_bf16_f32)
        (truncf .bf16 x1 bitsLt_bf16_f32) (constant S5000x256 .f32 0x00000000#32) (ix2 p k)
      = ∑ j : Fin 256, x0 (ix2 p j) * x1 (ix2 j k) :=
  Cert.PlainDot.matmul_zero_apply _ rfl none _ _ p k

/-- The context row copied to every row of the block, at (p, k): the row's entry k. -/
theorem ctx_apply (p : Fin 5000) (k : Fin 256) :
    broadcastTo S5000x256 (shapeCast S1x256 x3 shapeCasts_S1x256_S1x256) broadcasts_S1x256_S5000x256 (ix2 p k)
      = x3 (ix2 0 k) := by
  rw [shapeCast_self]
  exact Cert.RowVector.broadcastTo_row (by decide) x3 _ p k

/-- The value the body writes to the score output, at row p: the score of row p. -/
theorem pay11_apply (p : Fin 5000) :
    k0_pay11 (F := Ideal) x0 x1 x3 x2 (ix2 p 0) = bscore x0 x1 x2 x3 p := by
  unfold k0_pay11
  refine (Cert.PlainDot.matmul_zero_apply _ rfl none _ _ p (0 : Fin 1)).trans ?_
  unfold bscore Cert.Spec.score
  refine Finset.sum_congr rfl fun k _ => ?_
  rw [truncf_apply, truncf_apply, tanh_apply, addf_apply, xw_apply, ctx_apply]

/-! ## The running bound and the rescaled sum of exponentials -/

/-- The new bound: the old bound or the largest score of the block. -/
theorem pay12_apply (v20 : Vec Ideal S1x1 .f32) :
    k0_pay12 (F := Ideal) x0 x1 x3 x2 v20 (ix2 0 0)
      = Cert.Spec.stepM (bscore x0 x1 x2 x3) (v20 (ix2 0 0)) := by
  unfold k0_pay12 Cert.Spec.stepM
  rw [maximumf_apply]
  refine congrArg (max (v20 (ix2 0 0))) ?_
  refine (RowOps.shapeCast_a_a1_apply _ shapeCasts_S1_S1x1 (0 : Fin 1) (0 : Fin 1)).trans ?_
  refine (colMax_apply _ _ reduces_S5000x1_S1 (.inl rfl) rfl (0 : Fin 1)).trans ?_
  exact congrArg (fun f => Finset.fold max Cert.Spec.negInf f (Finset.univ : Finset (Fin 5000)))
    (funext fun p => pay11_apply x0 x1 x2 x3 p)

/-- The new sum of exponentials: the old one rescaled to the new bound, plus the block's exponentials. -/
theorem pay13_apply (v20 v22 v30 : Vec Ideal S1x1 .f32) :
    k0_pay13 (F := Ideal) x0 x1 x3 x2 v20 v22 v30 (ix2 0 0)
      = v30 (ix2 0 0) * Ideal.exp (v22 (ix2 0 0) - Cert.Spec.stepM (bscore x0 x1 x2 x3) (v20 (ix2 0 0)))
        + ∑ p : Fin 5000, Ideal.exp (bscore x0 x1 x2 x3 p - Cert.Spec.stepM (bscore x0 x1 x2 x3) (v20 (ix2 0 0))) := by
  unfold k0_pay13
  rw [addf_apply, mulf_apply, exp_apply, subf_apply, pay12_apply]
  refine congrArg (v30 (ix2 0 0) * Ideal.exp (v22 (ix2 0 0) - Cert.Spec.stepM (bscore x0 x1 x2 x3) (v20 (ix2 0 0))) + ·) ?_
  refine (RowOps.shapeCast_a_a1_apply _ shapeCasts_S1_S1x1 (0 : Fin 1) (0 : Fin 1)).trans ?_
  refine (ColOps.colSum_apply _ _ reduces_S5000x1_S1 (.inl rfl) rfl (0 : Fin 1)).trans ?_
  refine Finset.sum_congr rfl fun p _ => ?_
  rw [exp_apply, subf_apply, pay11_apply, broadcastTo_11_apply, pay12_apply]

/-! ## The two column sums -/

/-- The score-weighted column sum: the old one plus the sum over the block's rows of weight times entry. -/
theorem pay3_apply (v16 : FVec Ideal S5000x1 .f32) (v41 : Vec Ideal S1x256 .f32) (h : Fin 256) :
    k0_pay3 (F := Ideal) x0 v16 v41 (ix2 0 h) = v41 (ix2 0 h) + ∑ p : Fin 5000, v16 (ix2 p 0) * x0 (ix2 p h) := by
  unfold k0_pay3
  rw [shapeCast_self, addf_apply]
  refine congrArg (v41 (ix2 0 h) + ·) ?_
  refine (Cert.RowVector.shapeCast_row _ shapeCasts_S256_S1x256 h).trans ?_
  refine (ColOps.colSum_apply _ _ reduces_S5000x256_S256 (.inl rfl) rfl h).trans ?_
  refine Finset.sum_congr rfl fun p _ => ?_
  rw [mulf_apply, RowOps.broadcastTo_a1_ab_apply]

/-- The plain column sum: the old one plus the sum over the block's rows of the entry. -/
theorem pay4_apply (v48 : Vec Ideal S1x256 .f32) (h : Fin 256) :
    k0_pay4 (F := Ideal) x0 v48 (ix2 0 h) = v48 (ix2 0 h) + ∑ p : Fin 5000, x0 (ix2 p h) := by
  unfold k0_pay4
  rw [shapeCast_self, addf_apply]
  refine congrArg (v48 (ix2 0 h) + ·) ?_
  refine (Cert.RowVector.shapeCast_row _ shapeCasts_S256_S1x256 h).trans ?_
  exact ColOps.colSum_apply _ _ reduces_S5000x256_S256 (.inl rfl) rfl h

/-! ## The last block's results -/

/-- The log-sum-exp: the bound plus the logarithm of the rescaled sum. -/
theorem pay5_apply (v58 v59 : Vec Ideal S1x1 .f32) :
    k0_pay5 (F := Ideal) v58 v59 (ix2 0 0) = v58 (ix2 0 0) + Ideal.log (v59 (ix2 0 0)) := by
  unfold k0_pay5
  rw [addf_apply, log_apply]

/-- The weighted sum: the score-weighted column sum minus the log-sum-exp times the plain column sum. -/
theorem pay6_apply (v58 v59 : Vec Ideal S1x1 .f32) (v62 v63 : Vec Ideal S1x256 .f32) (h : Fin 256) :
    k0_pay6 (F := Ideal) v58 v59 v62 v63 (ix2 0 h)
      = v62 (ix2 0 h) - (v58 (ix2 0 0) + Ideal.log (v59 (ix2 0 0))) * v63 (ix2 0 h) := by
  unfold k0_pay6
  rw [subf_apply, mulf_apply, broadcastTo_11_apply, pay5_apply]

/-! ## The initial values -/

/-- The bound starts at −∞. -/
theorem pay7_apply : k0_pay7 (F := Ideal) (ix2 0 0) = Cert.Spec.negInf := by
  unfold k0_pay7
  rw [shapeCast_self]
  rfl

/-- The sum of exponentials starts at 0. -/
theorem pay8_apply : k0_pay8 (F := Ideal) (ix2 0 0) = Cert.Spec.zero := by
  unfold k0_pay8
  rw [shapeCast_self]
  rfl

/-- The score-weighted column sums start at 0. -/
theorem pay9_apply (h : Fin 256) : k0_pay9 (F := Ideal) (ix2 0 h) = Cert.Spec.zero := by
  unfold k0_pay9
  rw [shapeCast_self]
  rfl

/-- The plain column sums start at 0. -/
theorem pay10_apply (h : Fin 256) : k0_pay10 (F := Ideal) (ix2 0 h) = Cert.Spec.zero := by
  unfold k0_pay10
  rw [shapeCast_self]
  rfl

/-! ## The values stored back unchanged -/

/-- The new sum of exponentials is stored as it is (a cast to its own shape). -/
theorem pay1_eq (v32 : FVec Ideal S1x1 .f32) : k0_pay1 (F := Ideal) v32 = v32 := by
  unfold k0_pay1
  exact shapeCast_self _ _

/-- The new bound is stored as it is (a cast to its own shape). -/
theorem pay2_eq (v21 : FVec Ideal S1x1 .f32) : k0_pay2 (F := Ideal) v21 = v21 := by
  unfold k0_pay2
  exact shapeCast_self _ _

end Cert.KernelIdeal.Pay

end
-- ==== Proof.KBlocks.lean ====
/-
  What the kernel's input windows hold at a grid point, read off the arrays as the region finds them.

  The grid has 20 points. At point `t` the first window's block is rows `5000·t … 5000·t + 4999` of the 100000×256
  input; the other three windows' blocks are their whole arrays (the weight `Wm`, the column `V` and the projected
  context row), whatever the point. The projected context is computed before the kernel is launched: the context row
  times the transposed weight `W1`, so its entry `k` is `∑ⱼ hc(0,j)·W1(k,j)`.
-/
import proofs.«159929_j42305427865723_1_alg».proof.Proof.Gen.KernelIdeal.Frame.Runs
import proofs.«159929_j42305427865723_1_alg».proof.Proof.Spec
import proofs.«159929_j42305427865723_1_alg».proof.Proof.LibPlainDot
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The windows' block indices at point `t`: the input's and the score column's row block is `t`, every other
    index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of the input block at point `t` is row `5000·t + p` of the input. -/
theorem iblk0_apply (c : Dev nD) (t : Fin cfg0.N) (p : Fin 5000) (j : Fin 256) (r : Fin 100000)
    (hr : r.val = 5000 * t.val + p.val) :
    (iblk m c 0 t : Vec F S5000x256 .f32) (ix2 p j) = (V m c main_arg0 : S100000x256.Idx → Elt F .f32) (ix2 r j) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * j.val = j.val; rw [e1]; omega

/-- The weight window's block is the whole weight. -/
theorem iblk1_eq (c : Dev nD) (t : Fin cfg0.N) : (iblk m c 1 t : Vec F S256x256 .f32) = V m c main_arg2 := by
  obtain ⟨-, -, e0, e1, -⟩ := idx_facts t
  funext i
  unfold iblk
  rw [View.read_apply]
  show V m c main_arg2 _ = V m c main_arg2 i
  congr 1
  funext a
  apply Fin.ext
  match a with
  | ⟨0, _⟩ => show win0_1.index t (0 : Fin 2) * 256 + 1 * (i 0).val = (i 0).val; rw [e0]; omega
  | ⟨1, _⟩ => show win0_1.index t (1 : Fin 2) * 256 + 1 * (i 1).val = (i 1).val; rw [e1]; omega

/-- The column window's block is the whole column. -/
theorem iblk2_eq (c : Dev nD) (t : Fin cfg0.N) : (iblk m c 2 t : Vec F S256x1 .f32) = V m c main_arg3 := by
  obtain ⟨-, -, -, -, e0, e1, -⟩ := idx_facts t
  funext i
  unfold iblk
  rw [View.read_apply]
  show V m c main_arg3 _ = V m c main_arg3 i
  congr 1
  funext a
  apply Fin.ext
  match a with
  | ⟨0, _⟩ => show win0_2.index t (0 : Fin 2) * 256 + 1 * (i 0).val = (i 0).val; rw [e0]; omega
  | ⟨1, _⟩ => show win0_2.index t (1 : Fin 2) * 1 + 1 * (i 1).val = (i 1).val; rw [e1]; omega

/-- The projected-context window's block is the whole row. -/
theorem iblk3_eq (c : Dev nD) (t : Fin cfg0.N) : (iblk m c 3 t : Vec F S1x256 .f32) = V m c main_v1 := by
  obtain ⟨-, -, -, -, -, -, e0, e1, -⟩ := idx_facts t
  funext i
  unfold iblk
  rw [View.read_apply]
  show V m c main_v1 _ = V m c main_v1 i
  congr 1
  funext a
  apply Fin.ext
  match a with
  | ⟨0, _⟩ => show win0_3.index t (0 : Fin 2) * 1 + 1 * (i 0).val = (i 0).val; rw [e0]; omega
  | ⟨1, _⟩ => show win0_3.index t (1 : Fin 2) * 256 + 1 * (i 1).val = (i 1).val; rw [e1]; omega

/-- The projected context as the region finds it: the host's product of the context row with the transposed weight. -/
theorem V_main_v1 (c : Dev nD) :
    (V m c main_v1 : S1x256.Idx → Elt F .f32)
      = Host.dotGeneral dot_S1x256_S256x256_S1x256_1_0_0_1_n_n none (m ((c : Thread nD τ).loc main_arg1))
          (transpose S256x256 [1, 0] (m ((c : Thread nD τ).loc main_arg4)) transposes_S256x256_S256x256_1_0) := by
  show StableHlo.after hostOps0 (fun b => m (c, b)) (Proc.devRef .tc main_v1) = _
  after_results

end Cert.KernelIdeal.Blocks

namespace Cert.KernelIdeal.Blocks

open Cert.KernelIdeal Cert.KernelIdeal.Gen

variable (m : (ℓ : Loc nD τ sig) → Buf (Elt Ideal) ℓ)

/-- At the ideal values the projected context's entry `k` is `∑ⱼ hc(0,j)·W1(k,j)`. -/
theorem proj_apply (c : Dev nD) (k : Fin 256) :
    (V m c main_v1 : S1x256.Idx → EReal) (ix2 0 k)
      = Cert.Spec.proj (m ((c : Thread nD τ).loc main_arg1)) (m ((c : Thread nD τ).loc main_arg4)) k := by
  rw [V_main_v1]
  refine (Cert.PlainDot.dotGeneral_apply dot_S1x256_S256x256_S1x256_1_0_0_1_n_n rfl none _ _ _ (0 : Fin 1) k).trans ?_
  unfold Cert.Spec.proj
  refine Finset.sum_congr rfl fun j _ => ?_
  congr 1
  exact transpose_apply [1, 0] _ transposes_S256x256_S256x256_1_0 (ix2 j k) (ix2 k j) (fun b => match b with
    | ⟨0, _⟩ => rfl
    | ⟨1, _⟩ => rfl)

end Cert.KernelIdeal.Blocks

end
-- ==== Proof.KInv.lean ====
/-
  The carried cells after each grid point, and what the kernel's three output buffers hold, as the streaming pass of the
  specification.

  Write `a r` for the score of row `r` and `x(r,h)` for the input's entries, both read off the arrays as the kernel
  finds them. By induction on the grid point: after point `n` the four carried cells (bound, rescaled sum of
  exponentials, score-weighted column sums, plain column sums) hold the specification's state after block `n` — the
  first point starts from the reset values −∞, 0, 0, 0, every later point from what the point before left. At every point
  the score column's buffer holds the block's scores; at the last point the two remaining outputs hold the weighted sum
  and the log-sum-exp computed from the state after the last block.
-/
import proofs.«159929_j42305427865723_1_alg».proof.Proof.Gen.KernelIdeal.Frame
import proofs.«159929_j42305427865723_1_alg».proof.Proof.KPieces
import proofs.«159929_j42305427865723_1_alg».proof.Proof.KPay
import proofs.«159929_j42305427865723_1_alg».proof.Proof.KBlocks
import proofs.«159929_j42305427865723_1_alg».proof.Proof.Spec

set_option maxRecDepth 16384

noncomputable section

open Idealize.ShloMosaic Idealize.ShloMosaic.TcCoe Idealize.SL.Sem Idealize.ShloMosaic.ValueIdx
open scoped BigOperators

namespace Cert.KernelIdeal.Inv

open Cert.KernelIdeal Cert.KernelIdeal.Gen Cert.KernelIdeal.Pay

/-! ## One block, over plain vectors -/

/-- Four vectors (two 1×1 cells, two 1×256 rows) hold a state of the streaming pass, entry by entry. -/
def Holds (v0 v1 : Vec Ideal S1x1 .f32) (v2 v3 : Vec Ideal S1x256 .f32) (σ : Cert.Spec.St) : Prop :=
  v0 (ix2 0 0) = σ.m ∧ v1 (ix2 0 0) = σ.l ∧ (∀ h : Fin 256, v2 (ix2 0 h) = σ.s1 h) ∧ (∀ h : Fin 256, v3 (ix2 0 h) = σ.s2 h)

/-- The reset values hold the initial state. -/
theorem init_holds : Holds (k0_pay7 (F := Ideal)) (k0_pay8 (F := Ideal)) (k0_pay9 (F := Ideal)) (k0_pay10 (F := Ideal)) Cert.Spec.init :=
  ⟨pay7_apply, pay8_apply, pay9_apply, pay10_apply⟩

/-- One point's updates of the carried cells are one block of the streaming pass: the block's scores are the scores
    `a` of block `t`'s rows and its entries the entries `x` of those rows. -/
theorem step_holds (x0 : Vec Ideal S5000x256 .f32) (x1 : Vec Ideal S256x256 .f32) (x2 : Vec Ideal S256x1 .f32)
    (x3 : Vec Ideal S1x256 .f32) (xs0 xs1 : Vec Ideal S1x1 .f32) (xs2 xs3 : Vec Ideal S1x256 .f32) (σ : Cert.Spec.St)
    (a : Fin 100000 → EReal) (x : Fin 100000 → Fin 256 → EReal) (t : Fin 20)
    (ha : ∀ p : Fin 5000, bscore x0 x1 x2 x3 p = a (Cert.Spec.rowOf t p))
    (hx : ∀ (p : Fin 5000) (h : Fin 256), x0 (ix2 p h) = x (Cert.Spec.rowOf t p) h)
    (H : Holds xs0 xs1 xs2 xs3 σ) :
    Holds (k0_pay2 (k0_pay12 x0 x1 x3 x2 xs0)) (k0_pay1 (k0_pay13 x0 x1 x3 x2 xs0 xs0 xs1))
      (k0_pay3 x0 (k0_pay11 x0 x1 x3 x2) xs2) (k0_pay4 x0 xs3) (Cert.Spec.step a x t σ) := by
  have hb : bscore x0 x1 x2 x3 = fun p => a (Cert.Spec.rowOf t p) := funext ha
  obtain ⟨H0, H1, H2, H3⟩ := H
  refine ⟨?_, ?_, fun h => ?_, fun h => ?_⟩
  · rw [pay2_eq, pay12_apply, H0, hb]; rfl
  · rw [pay1_eq, pay13_apply, H0, H1, hb]; rfl
  · rw [pay3_apply, H2 h]
    show _ = σ.s1 h + ∑ p : Fin 5000, a (Cert.Spec.rowOf t p) * x (Cert.Spec.rowOf t p) h
    congr 1
    exact Finset.sum_congr rfl fun p _ => by rw [pay11_apply, ha p, hx p h]
  · rw [pay4_apply, H3 h]
    show _ = σ.s2 h + ∑ p : Fin 5000, x (Cert.Spec.rowOf t p) h
    congr 1
    exact Finset.sum_congr rfl fun p _ => hx p h

/-- The block's scores from its input blocks are the scores of its rows, once each block is read off its array. -/
theorem bscore_of_blocks (x0 : Vec Ideal S5000x256 .f32) (x1 : Vec Ideal S256x256 .f32) (x2 : Vec Ideal S256x1 .f32)
    (x3 : Vec Ideal S1x256 .f32) (X : (⟨2, ![100000, 256]⟩ : Shape).Idx → EReal) (Wm : (⟨2, ![256, 256]⟩ : Shape).Idx → EReal)
    (Vv : (⟨2, ![256, 1]⟩ : Shape).Idx → EReal) (Pr : (⟨2, ![1, 256]⟩ : Shape).Idx → EReal) (p : Fin 5000) (r : Fin 100000)
    (h0 : ∀ j : Fin 256, x0 (ix2 p j) = X (ix2 r j)) (h1 : x1 = Wm) (h2 : x2 = Vv) (h3 : x3 = Pr) :
    bscore x0 x1 x2 x3 p = Cert.Spec.scores X Wm (fun k => Pr (ix2 0 k)) Vv r := by
  subst h1 h2 h3
  unfold bscore Cert.Spec.scores
  congr 1
  exact funext h0

/-! ## The arrays as the kernel finds them -/

variable (m : (ℓ : Loc nD τ sig) → Buf (Elt Ideal) ℓ)

/-- The scores of all rows. -/
def aK (c : Dev nD) : Fin 100000 → EReal :=
  Cert.Spec.scores (V m c main_arg0) (V m c main_arg2) (fun k => (V m c main_v1 : S1x256.Idx → EReal) (ix2 0 k)) (V m c main_arg3)

/-- The input's entries. -/
def xK (c : Dev nD) : Fin 100000 → Fin 256 → EReal := fun r h => (V m c main_arg0 : S100000x256.Idx → EReal) (ix2 r h)

/-- A grid point as a block number. -/
def blk (t : Fin cfg0.N) : Fin 20 := ⟨t.val, lt_of_lt_of_eq t.isLt N_0⟩

theorem rowOf_val (t : Fin cfg0.N) (p : Fin 5000) : (Cert.Spec.rowOf (blk t) p).val = 5000 * t.val + p.val := rfl

/-- The scores of point `t`'s block are the scores of its rows. -/
theorem bscore_eq (c : Dev nD) (t : Fin cfg0.N) (p : Fin 5000) :
    bscore (iblk m c 0 t) (iblk m c 1 t) (iblk m c 2 t) (iblk m c 3 t) p = aK m c (Cert.Spec.rowOf (blk t) p) :=
  bscore_of_blocks (iblk m c 0 t) (iblk m c 1 t) (iblk m c 2 t) (iblk m c 3 t) (V m c main_arg0) (V m c main_arg2)
    (V m c main_arg3) (V m c main_v1) p (Cert.Spec.rowOf (blk t) p)
    (fun j => Blocks.iblk0_apply m c t p j (Cert.Spec.rowOf (blk t) p) (rowOf_val t p))
    (Blocks.iblk1_eq m c t) (Blocks.iblk2_eq m c t) (Blocks.iblk3_eq m c t)

/-- The entries of point `t`'s block are the entries of its rows. -/
theorem xblock_eq (c : Dev nD) (t : Fin cfg0.N) (p : Fin 5000) (h : Fin 256) :
    (iblk m c 0 t : Vec Ideal S5000x256 .f32) (ix2 p h) = xK m c (Cert.Spec.rowOf (blk t) p) h :=
  Blocks.iblk0_apply m c t p h (Cert.Spec.rowOf (blk t) p) (rowOf_val t p)

/-! ## The induction over the grid -/

/-- The first point: from the reset values, one block. -/
theorem cells_first (c : Dev nD) (t : Fin cfg0.N) (h0 : t.val % 20 = 0) (h1 : ¬t.val % 20 = 19) :
    Holds (outsAt0 m c t.val t.isLt).2.2.2.1 (outsAt0 m c t.val t.isLt).2.2.2.2.1 (outsAt0 m c t.val t.isLt).2.2.2.2.2.1
      (outsAt0 m c t.val t.isLt).2.2.2.2.2.2 (Cert.Spec.step (aK m c) (xK m c) (blk t) Cert.Spec.init) := by
  rw [outsAt0_A m c t h0 h1]
  dsimp only
  rw [Pieces.soutA0, Pieces.soutA1, Pieces.soutA2, Pieces.soutA3]
  exact step_holds (iblk m c 0 t) (iblk m c 1 t) (iblk m c 2 t) (iblk m c 3 t)
    _ _ _ _ Cert.Spec.init (aK m c) (xK m c) (blk t)
    (bscore_eq m c t) (xblock_eq m c t) init_holds

/-- A middle point: from what the point before left, one block. -/
theorem cells_next (c : Dev nD) (t : Fin cfg0.N) (h0 : ¬t.val % 20 = 0) (h1 : ¬t.val % 20 = 19) (σ : Cert.Spec.St)
    (H : Holds (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 σ) :
    Holds (outsAt0 m c t.val t.isLt).2.2.2.1 (outsAt0 m c t.val t.isLt).2.2.2.2.1 (outsAt0 m c t.val t.isLt).2.2.2.2.2.1
      (outsAt0 m c t.val t.isLt).2.2.2.2.2.2 (Cert.Spec.step (aK m c) (xK m c) (blk t) σ) := by
  rw [outsAt0_B m c t h0 h1]
  dsimp only
  rw [Pieces.soutB0, Pieces.soutB1, Pieces.soutB2, Pieces.soutB3]
  exact step_holds (iblk m c 0 t) (iblk m c 1 t) (iblk m c 2 t) (iblk m c 3 t) _ _ _ _ σ (aK m c) (xK m c) (blk t)
    (bscore_eq m c t) (xblock_eq m c t) H

/-- The last point: the two remaining outputs from the state after its own block. -/
theorem finals_step (c : Dev nD) (t : Fin cfg0.N) (h0 : ¬t.val % 20 = 0) (h1 : t.val % 20 = 19) (σ : Cert.Spec.St)
    (H : Holds (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 σ) :
    (∀ h : Fin 256, ((outsAt0 m c t.val t.isLt).2.1 : Vec Ideal S1x256 .f32) (ix2 0 h)
        = (Cert.Spec.step (aK m c) (xK m c) (blk t) σ).s1 h
          - ((Cert.Spec.step (aK m c) (xK m c) (blk t) σ).m + Ideal.log (Cert.Spec.step (aK m c) (xK m c) (blk t) σ).l)
            * (Cert.Spec.step (aK m c) (xK m c) (blk t) σ).s2 h)
    ∧ ((outsAt0 m c t.val t.isLt).2.2.1 : Vec Ideal S1x1 .f32) (ix2 0 0)
        = (Cert.Spec.step (aK m c) (xK m c) (blk t) σ).m + Ideal.log (Cert.Spec.step (aK m c) (xK m c) (blk t) σ).l := by
  obtain ⟨H0, H1, H2, H3⟩ := step_holds (iblk m c 0 t) (iblk m c 1 t) (iblk m c 2 t) (iblk m c 3 t) _ _ _ _ σ
    (aK m c) (xK m c) (blk t) (bscore_eq m c t) (xblock_eq m c t) H
  rw [outsAt0_C m c t h0 h1]
  dsimp only
  rw [Pieces.outC5, Pieces.outC6]
  refine ⟨fun h => ?_, ?_⟩
  · rw [pay6_apply, H0, H1, H2 h, H3 h]
  · rw [pay5_apply, H0, H1]

/-- After point `n` (not the last) the carried cells hold the streaming pass's state after block `n`. -/
theorem cells_hold (c : Dev nD) : ∀ (n : ℕ) (hn : n < cfg0.N) (h20 : n < 20), n < 19 →
    Holds (outsAt0 m c n hn).2.2.2.1 (outsAt0 m c n hn).2.2.2.2.1 (outsAt0 m c n hn).2.2.2.2.2.1
      (outsAt0 m c n hn).2.2.2.2.2.2 (Cert.Spec.stAfter (aK m c) (xK m c) n h20)
  | 0, hn, h20, _ => cells_first m c ⟨0, hn⟩ rfl (by dsimp only; omega)
  | n + 1, hn, h20, h19 =>
    cells_next m c ⟨n + 1, hn⟩ (by dsimp only; omega) (by dsimp only; omega)
      (Cert.Spec.stAfter (aK m c) (xK m c) n (Nat.lt_of_succ_lt h20))
      (cells_hold c n (Nat.lt_of_succ_lt hn) (Nat.lt_of_succ_lt h20) (by omega))

/-- At every point the score column's buffer holds the scores of the block's rows. -/
theorem scores_at (c : Dev nD) (t : Fin cfg0.N) (p : Fin 5000) :
    ((outsAt0 m c t.val t.isLt).1 : Vec Ideal S5000x1 .f32) (ix2 p 0) = aK m c (Cert.Spec.rowOf (blk t) p) := by
  have hN : cfg0.N = 20 := N_0
  have e : (outsAt0 m c t.val t.isLt).1 = k0_pay11 (iblk m c 0 t) (iblk m c 1 t) (iblk m c 3 t) (iblk m c 2 t) := by
    by_cases h0 : t.val % 20 = 0
    · have h1 : ¬t.val % 20 = 19 := by omega
      rw [outsAt0_A m c t h0 h1]; dsimp only; rw [Pieces.outA4]
    · by_cases h1 : t.val % 20 = 19
      · rw [outsAt0_C m c t h0 h1]; dsimp only; rw [Pieces.outC4]
      · rw [outsAt0_B m c t h0 h1]; dsimp only; rw [Pieces.outB4]
  rw [e]
  exact (pay11_apply (iblk m c 0 t) (iblk m c 1 t) (iblk m c 2 t) (iblk m c 3 t) p).trans (bscore_eq m c t p)

/-- The last grid point. -/
def tLast : Fin cfg0.N := ⟨19, by rw [show cfg0.N = 20 from N_0]; decide⟩

/-- At the last point the weighted-sum buffer holds the streaming weighted sum and the log-sum-exp buffer the streaming
    log-sum-exp. -/
theorem finals_at (c : Dev nD) :
    (∀ h : Fin 256, ((outsAt0 m c tLast.val tLast.isLt).2.1 : Vec Ideal S1x256 .f32) (ix2 0 h) = Cert.Spec.kCt (aK m c) (xK m c) h)
    ∧ ((outsAt0 m c tLast.val tLast.isLt).2.2.1 : Vec Ideal S1x1 .f32) (ix2 0 0) = Cert.Spec.kLse (aK m c) (xK m c) :=
  finals_step m c tLast (by decide) (by decide) (Cert.Spec.stAfter (aK m c) (xK m c) 18 (by decide))
    (cells_hold m c 18 (by rw [show cfg0.N = 20 from N_0]; decide) (by decide) (by decide))

end Cert.KernelIdeal.Inv

end
-- ==== Proof.LibFlatten.lean ====
/-
  A reshape between a flat axis and a pair of axes, read at an entry.

  Row-major order puts entry (j, k) of a b×c pair of axes at flat position j·c + k. So an a×n array viewed as a×b×c
  (n = b·c) holds at (i, j, k) the entry (i, j·c + k), and the other way round; the same without the leading axis,
  from a length-n vector to b×c and from b×c to a 1×n row; and a length-n vector viewed as 1×n×1 holds at (0, k, 0)
  the vector's entry k. The flat coordinate is any `q : Fin n` with value j·c + k.
-/
import Idealize.ShloMosaic.Lib.Pipeline.Value
import Idealize.ShloMosaic.Lib.ValueIdx

noncomputable section

namespace Cert.Flatten

open Idealize.ShloMosaic Idealize.ShloMosaic.ValueIdx

variable {α : Type} {a b c n : Nat}

/-- An a×n array viewed as a×b×c, at (i, j, k): the entry (i, j·c + k). -/
theorem split_apply (x : (⟨2, ![a, n]⟩ : Shape).Idx → α) (h : (⟨2, ![a, n]⟩ : Shape).ShapeCasts ⟨3, ![a, b, c]⟩)
    (hn : n = b * c) (i : Fin a) (j : Fin b) (k : Fin c) (q : Fin n) (hq : q.val = j.val * c + k.val) :
    shapeCast ⟨3, ![a, b, c]⟩ x h (ix3 i j k) = x (ix2 i q) :=
  shapeCast_apply x h (ix3 i j k) (ix2 i q) (by
    rw [Shape.rowMajor_val_two, Shape.rowMajor_val_three]
    show i.val * n + q.val = (i.val * b + j.val) * c + k.val
    rw [hq, hn, Nat.add_mul, Nat.mul_assoc, Nat.add_assoc])

/-- An a×b×c array flattened to a×n, at (i, j·c + k): the entry (i, j, k). -/
theorem merge_apply (x : (⟨3, ![a, b, c]⟩ : Shape).Idx → α) (h : (⟨3, ![a, b, c]⟩ : Shape).ShapeCasts ⟨2, ![a, n]⟩)
    (hn : n = b * c) (i : Fin a) (j : Fin b) (k : Fin c) (q : Fin n) (hq : q.val = j.val * c + k.val) :
    shapeCast ⟨2, ![a, n]⟩ x h (ix2 i q) = x (ix3 i j k) :=
  shapeCast_apply x h (ix2 i q) (ix3 i j k) (by
    rw [Shape.rowMajor_val_two, Shape.rowMajor_val_three]
    show (i.val * b + j.val) * c + k.val = i.val * n + q.val
    rw [hq, hn, Nat.add_mul, Nat.mul_assoc, Nat.add_assoc])

/-- A length-n vector viewed as b×c, at (j, k): the entry j·c + k. -/
theorem split1_apply (x : (⟨1, ![n]⟩ : Shape).Idx → α) (h : (⟨1, ![n]⟩ : Shape).ShapeCasts ⟨2, ![b, c]⟩)
    (j : Fin b) (k : Fin c) (q : Fin n) (hq : q.val = j.val * c + k.val) :
    shapeCast ⟨2, ![b, c]⟩ x h (ix2 j k) = x (ix1 q) :=
  shapeCast_apply x h (ix2 j k) (ix1 q) (by
    rw [Shape.rowMajor_val_two, Shape.rowMajor_val_one]
    show q.val = j.val * c + k.val
    exact hq)

/-- A b×c array flattened to a 1×n row, at (0, j·c + k): the entry (j, k). -/
theorem merge1_apply (x : (⟨2, ![b, c]⟩ : Shape).Idx → α) (h : (⟨2, ![b, c]⟩ : Shape).ShapeCasts ⟨2, ![1, n]⟩)
    (j : Fin b) (k : Fin c) (q : Fin n) (hq : q.val = j.val * c + k.val) :
    shapeCast ⟨2, ![1, n]⟩ x h (ix2 0 q) = x (ix2 j k) :=
  shapeCast_apply x h (ix2 0 q) (ix2 j k) (by
    rw [Shape.rowMajor_val_two, Shape.rowMajor_val_two]
    show j.val * c + k.val = 0 * n + q.val
    rw [hq, Nat.zero_mul, Nat.zero_add])

/-- A length-n vector viewed as 1×n×1, at (0, k, 0): the entry k. -/
theorem column3_apply (x : (⟨1, ![n]⟩ : Shape).Idx → α) (h : (⟨1, ![n]⟩ : Shape).ShapeCasts ⟨3, ![1, n, 1]⟩) (k : Fin n) :
    shapeCast ⟨3, ![1, n, 1]⟩ x h (ix3 0 k 0) = x (ix1 k) :=
  shapeCast_apply x h (ix3 0 k 0) (ix1 k) (by
    rw [Shape.rowMajor_val_three, Shape.rowMajor_val_one]
    show k.val = (0 * n + k.val) * 1 + 0
    rw [Nat.zero_mul, Nat.zero_add, Nat.mul_one, Nat.add_zero])

end Cert.Flatten

end
-- ==== Proof.KFinal.lean ====
/-
  The kernel's three result arrays after the run, the two host operations after it, and the run read back.

  The score column is written back block by block: point `t` writes rows `5000·t … 5000·t + 4999`, so the 20 blocks cover
  the 100000 rows and the array ends holding the score of every row. The weighted sum and the log-sum-exp are written back
  once, after the last point, as whole arrays. After the kernel the host reshapes the score column to a row and subtracts the
  log-sum-exp from every entry: entry `r` of the first result is `a r − lse`, the streaming log-softmax.
-/
import proofs.«159929_j42305427865723_1_alg».proof.Proof.KInv
import proofs.«159929_j42305427865723_1_alg».proof.Proof.LibFlatten
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Inv

variable (m : (ℓ : Loc nD τ sig) → Buf (Elt Ideal) ℓ) (ρ : Dev nD → PrngReg)

/-- The score column after the run: the score of each row. -/
def G4 (c : Dev nD) : S100000x1.Idx → EReal := fun i => aK m c (i 0)
/-- The weighted sum after the run. -/
def G5 (c : Dev nD) : S1x256.Idx → EReal := fun i => Cert.Spec.kCt (aK m c) (xK m c) (i 1)
/-- The log-sum-exp after the run. -/
def G6 (c : Dev nD) : S1x1.Idx → EReal := fun _ => Cert.Spec.kLse (aK m c) (xK m c)

/-! ## The score column: 20 blocks of 5000 rows -/

/-- Point `t` writes back rows `5000·t …` of the scores. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  obtain ⟨-, -, -, -, -, -, -, -, e0, e1, -⟩ := Blocks.idx_facts t
  funext y
  obtain ⟨p, q, rfl⟩ : ∃ (p : Fin 5000) (q : Fin 1), y = ix2 p q := ⟨y 0, y 1, eq_ix2 y⟩
  obtain rfl : q = 0 := Subsingleton.elim _ _
  rw [View.read_apply]
  show ((outsAt0 m c t.val t.isLt).1 : Vec Ideal S5000x1 .f32) (ix2 p 0) = G4 m c (((cfg0.win 4).blk t).view.emb (ix2 p 0))
  rw [scores_at]
  unfold G4
  congr 1
  apply Fin.ext
  show 5000 * t.val + p.val = win0_4.index t (0 : Fin 2) * 5000 + 1 * p.val
  rw [e0]; omega

/-- An index is in point `t`'s block iff each coordinate is in the block's range. -/
theorem mem_blk4 (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v2_0).slice (win0_4.rect t)).set ↔ _
  rw [View.set_slice_whole, Rect.mem_set_unit]
  exact Iff.rfl

/-- Every row is in the block of the point `row / 5000`. -/
theorem cover4 (i : S100000x1.Idx) : ∃ t : Fin cfg0.N, (cfg0.win 4).flush t = true ∧ i ∈ ((cfg0.win 4).blk t).view.set := by
  have hi0 : (i 0).val < 100000 := (i 0).isLt
  have hi1 : (i 1).val < 1 := (i 1).isLt
  have hN : cfg0.N = 20 := N_0
  have ht : (i 0).val / 5000 < cfg0.N := by rw [hN]; omega
  obtain ⟨-, -, -, -, -, -, -, -, e0, e1, -⟩ := Blocks.idx_facts ⟨(i 0).val / 5000, ht⟩
  refine ⟨⟨(i 0).val / 5000, ht⟩, flush0_4 _, ?_⟩
  rw [mem_blk4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 1 ≤ (i 1).val ∧ (i 1).val < win0_4.index ⟨(i 0).val / 5000, ht⟩ (1 : Fin 2) * 1 + 1
    rw [e1]; omega

/-- The score column ends holding every row's score. -/
theorem final4 (c : Dev nD) : (dats m 0 c).arrAt 4 cfg0.N = G4 m c :=
  (dats m 0 c).arrAt_eq_of_cover 4 (G4 m c) (fun t _ => flushed4_eq m c t) cover4

/-! ## The weighted sum and the log-sum-exp: one write-back each, after the last point -/

theorem flush_last {t : Fin cfg0.N} (h : t.val % 20 = 19) : t = tLast := by
  have hN : cfg0.N = 20 := N_0
  have := t.isLt
  exact Fin.ext (show t.val = 19 by omega)

theorem flushed5_eq (c : Dev nD) (t : Fin cfg0.N) (hf : (cfg0.win 5).flush t = true) :
    (dats m 0 c).flushed 5 t = ((cfg0.win 5).blk t).view.read (Elt Ideal) (G5 m c) := by
  obtain rfl : t = tLast := flush_last ((flush0_5 t).mp hf)
  show (cfg0.win 5).cut (grid0.coords tLast) ((dats m 0 c).after 5 tLast) = _
  rw [after0_5]
  obtain ⟨-, -, -, -, -, -, -, -, -, -, e0, e1, -⟩ := Blocks.idx_facts tLast
  funext y
  obtain ⟨q, h, rfl⟩ : ∃ (q : Fin 1) (h : Fin 256), y = ix2 q h := ⟨y 0, y 1, eq_ix2 y⟩
  obtain rfl : q = 0 := Subsingleton.elim _ _
  rw [View.read_apply]
  show ((outsAt0 m c tLast.val tLast.isLt).2.1 : Vec Ideal S1x256 .f32) (ix2 0 h) = G5 m c (((cfg0.win 5).blk tLast).view.emb (ix2 0 h))
  rw [(finals_at m c).1 h]
  unfold G5
  congr 1
  apply Fin.ext
  show h.val = win0_5.index tLast (1 : Fin 2) * 256 + 1 * h.val
  rw [e1]; omega

theorem flushed6_eq (c : Dev nD) (t : Fin cfg0.N) (hf : (cfg0.win 6).flush t = true) :
    (dats m 0 c).flushed 6 t = ((cfg0.win 6).blk t).view.read (Elt Ideal) (G6 m c) := by
  obtain rfl : t = tLast := flush_last ((flush0_6 t).mp hf)
  show (cfg0.win 6).cut (grid0.coords tLast) ((dats m 0 c).after 6 tLast) = _
  rw [after0_6]
  funext y
  obtain ⟨q, h, rfl⟩ : ∃ (q : Fin 1) (h : Fin 1), y = ix2 q h := ⟨y 0, y 1, eq_ix2 y⟩
  obtain rfl : q = 0 := Subsingleton.elim _ _
  obtain rfl : h = 0 := Subsingleton.elim _ _
  rw [View.read_apply]
  show ((outsAt0 m c tLast.val tLast.isLt).2.2.1 : Vec Ideal S1x1 .f32) (ix2 0 0) = G6 m c (((cfg0.win 6).blk tLast).view.emb (ix2 0 0))
  rw [(finals_at m c).2]
  rfl

theorem mem_blk5 (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v2_1).slice (win0_5.rect t)).set ↔ _
  rw [View.set_slice_whole, Rect.mem_set_unit]
  exact Iff.rfl

theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v2_2).slice (win0_6.rect t)).set ↔ _
  rw [View.set_slice_whole, Rect.mem_set_unit]
  exact Iff.rfl

theorem cover5 (i : S1x256.Idx) : ∃ t : Fin cfg0.N, (cfg0.win 5).flush t = true ∧ i ∈ ((cfg0.win 5).blk t).view.set := by
  have hi0 : (i 0).val < 1 := (i 0).isLt
  have hi1 : (i 1).val < 256 := (i 1).isLt
  obtain ⟨-, -, -, -, -, -, -, -, -, -, e0, e1, -⟩ := Blocks.idx_facts tLast
  refine ⟨tLast, (flush0_5 tLast).mpr (by decide), ?_⟩
  rw [mem_blk5]
  intro a
  match a with
  | ⟨0, _⟩ => show win0_5.index tLast (0 : Fin 2) * 1 ≤ (i 0).val ∧ (i 0).val < win0_5.index tLast (0 : Fin 2) * 1 + 1; rw [e0]; omega
  | ⟨1, _⟩ => show win0_5.index tLast (1 : Fin 2) * 256 ≤ (i 1).val ∧ (i 1).val < win0_5.index tLast (1 : Fin 2) * 256 + 256; rw [e1]; omega

theorem cover6 (i : S1x1.Idx) : ∃ t : Fin cfg0.N, (cfg0.win 6).flush t = true ∧ i ∈ ((cfg0.win 6).blk t).view.set := by
  have hi0 : (i 0).val < 1 := (i 0).isLt
  have hi1 : (i 1).val < 1 := (i 1).isLt
  obtain ⟨-, -, -, -, -, -, -, -, -, -, -, -, e0, e1⟩ := Blocks.idx_facts tLast
  refine ⟨tLast, (flush0_6 tLast).mpr (by decide), ?_⟩
  rw [mem_blk6]
  intro a
  match a with
  | ⟨0, _⟩ => show win0_6.index tLast (0 : Fin 2) * 1 ≤ (i 0).val ∧ (i 0).val < win0_6.index tLast (0 : Fin 2) * 1 + 1; rw [e0]; omega
  | ⟨1, _⟩ => show win0_6.index tLast (1 : Fin 2) * 1 ≤ (i 1).val ∧ (i 1).val < win0_6.index tLast (1 : Fin 2) * 1 + 1; rw [e1]; omega

theorem final5 (c : Dev nD) : (dats m 0 c).arrAt 5 cfg0.N = G5 m c :=
  (dats m 0 c).arrAt_eq_of_cover 5 (G5 m c) (flushed5_eq m c) cover5

theorem final6 (c : Dev nD) : (dats m 0 c).arrAt 6 cfg0.N = G6 m c :=
  (dats m 0 c).arrAt_eq_of_cover 6 (G6 m c) (flushed6_eq m c) cover6

/-! ## The host's two operations after the kernel -/

/-- The first result: entry `r` is the score of row `r` minus the log-sum-exp. -/
def R0 (c : Dev nD) : S1x100000.Idx → EReal := fun i => Cert.Spec.kAlpha (aK m c) (xK m c) (i 1)

/-- The score column reshaped to a row, minus the log-sum-exp spread along the row, at entry `r`. -/
theorem tail_read (A4 : Vec Ideal S100000x1 .f32) (A6 : Vec Ideal S1x1 .f32) (r : Fin 100000) :
    (subf (shapeCast S1x100000 A4 shapeCasts_S100000x1_S1x100000)
        (broadcastInDim S1x100000 ![0, 1] bcast_S1x1_S1x100000_0_1 A6) : FVec Ideal S1x100000 .f32) (ix2 0 r)
      = A4 (ix2 r 0) - A6 (ix2 0 0) := by
  show shapeCast S1x100000 A4 shapeCasts_S100000x1_S1x100000 (ix2 0 r)
      - broadcastInDim S1x100000 ![0, 1] bcast_S1x1_S1x100000_0_1 A6 (ix2 0 r) = _
  rw [Cert.Flatten.merge1_apply A4 shapeCasts_S100000x1_S1x100000 r (0 : Fin 1) r (by simp)]
  congr 1
  exact broadcastInDim_apply _ bcast_S1x1_S1x100000_0_1 A6 (ix2 0 r) (ix2 0 0) (fun a => match a with
    | ⟨0, _⟩ => by
      show (0 : Nat) = if (1 : Nat) = 1 then 0 else _
      rw [if_pos rfl]
    | ⟨1, _⟩ => by
      show (0 : Nat) = if (1 : Nat) = 1 then 0 else _
      rw [if_pos rfl])

/-- What the host leaves in the first result's buffer: the reshaped score column minus the spread log-sum-exp. -/
theorem tail_v5 (c : Dev nD) :
    (Pipeline.afterTail₀ cfgs (dats m) 0 (V0 m) [hostOps1] c main_v5 : FVec Ideal S1x100000 .f32) = R0 m c := by
  have e : (Pipeline.afterTail₀ cfgs (dats m) 0 (V0 m) [hostOps1] c main_v5 : FVec Ideal S1x100000 .f32)
      = (subf (shapeCast S1x100000 (G4 m c) shapeCasts_S100000x1_S1x100000)
          (broadcastInDim S1x100000 ![0, 1] bcast_S1x1_S1x100000_0_1 (G6 m c)) : FVec Ideal S1x100000 .f32) := by
    unfold Pipeline.afterTail₀
    show StableHlo.after hostOps1 _ (Proc.devRef .tc main_v5) = _
    after_results
    have e4 : Pipeline.withArrays (cfgs 0).spec c (V0 m c) (fun w => (dats m 0 c).arrAt w (cfgs 0).N) (Proc.devRef .tc main_v2_0) = G4 m c :=
      (Pipeline.withArrays_arr spec0 launch0.win.arr_inj c _ _ 4).trans (final4 m c)
    have e6 : Pipeline.withArrays (cfgs 0).spec c (V0 m c) (fun w => (dats m 0 c).arrAt w (cfgs 0).N) (Proc.devRef .tc main_v2_2) = G6 m c :=
      (Pipeline.withArrays_arr spec0 launch0.win.arr_inj c _ _ 6).trans (final6 m c)
    rw [e4, e6]
    rfl
  rw [e]
  funext i
  obtain ⟨q, r, rfl⟩ : ∃ (q : Fin 1) (r : Fin 100000), i = ix2 q r := ⟨i 0, i 1, eq_ix2 i⟩
  obtain rfl : q = 0 := Subsingleton.elim _ _
  exact tail_read (G4 m c) (G6 m c) r

/-! ## The run, read -/

/-- Every weakly fair execution of the kernel's program ends with the first result at the streaming log-softmax, the
    second at the streaming weighted sum, and the five arguments as they were. -/
theorem run : θ_run defs (onTc (τ := τ) (main (F := Ideal))) ⟨m, fun _ => 0, ρ⟩ (fun r => ∀ c : Dev nD,
      r.2.mem ((c.tc : Thread nD τ).loc main_v5) = R0 m c
      ∧ r.2.mem ((c.tc : Thread nD τ).loc main_v2_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_v5 m c),
      ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

/-! ## The scores and the entries in terms of the launch arguments -/

/-- The scores the kernel works with are the scores of the launch arguments: the input, `Wm` and `V` reach the kernel
    unchanged, and the projected context is the context row times the transposed `W1`. -/
theorem aK_eq (c : Dev nD) :
    aK m c = Cert.Spec.scores (m ((c : Thread nD τ).loc main_arg0)) (m ((c : Thread nD τ).loc main_arg2))
      (Cert.Spec.proj (m ((c : Thread nD τ).loc main_arg1)) (m ((c : Thread nD τ).loc main_arg4)))
      (m ((c : Thread nD τ).loc main_arg3)) := by
  unfold aK
  rw [V_main_arg0 m c, V_main_arg2 m c, V_main_arg3 m c]
  congr 1
  funext k
  exact Blocks.proj_apply m c k

theorem xK_eq (c : Dev nD) :
    xK m c = fun (r : Fin 100000) (h : Fin 256) => (m ((c : Thread nD τ).loc main_arg0) : S100000x256.Idx → EReal) (ix2 r h) := by
  unfold xK
  rw [V_main_arg0 m c]

end Cert.KernelIdeal.Final

end
-- ==== Proof.RefRead.lean ====
/-
  The reference program, one operation at a time, as functions of its five argument arrays, and each operation read at
  an index. `val_<buffer>` is the array an operation writes: the transposed weight, the context row times it, the
  input times the weight, the broadcast of the projected context over the rows, their sum, its hyperbolic tangent, the
  product with the output weight (the score column), the column reshaped to a row; then the log-softmax of that row
  (the maximum by a reduce from −∞ taken once more against −∞, the shifted row, its exponential, the sum from zero,
  the logarithm, the difference) and the product of the log-softmax row with the input. `val_<buffer>_apply` reads the
  operation at an index `i`: a pointwise operation at `i` itself, a transpose, broadcast or reshape at the index its
  literal shapes determine (`idx_<buffer> i`), a `dot_general` as the sum over the contracted coordinate `k` of the left
  operand at `lidx_<buffer> i k` times the right at `ridx_<buffer> i k`, the float sum as its initial value plus the sum over
  `k` of the operand at `idx_<buffer> i k`. The reduce with a maximum body has no such lemma here: its element is a fold
  over an axis.
-/
import proofs.«159929_j42305427865723_1_alg».proof.Proof.Gen.ReferenceIdeal
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.transpose %arg4, dims = [1, 0] : (tensor<256x256xf32>) -> tensor<256x256xf32>
def val_main_v0 (x4 : (⟨S256x256, .f32⟩ : BufTy).Contents (Elt F)) : (⟨S256x256, .f32⟩ : BufTy).Contents (Elt F) :=
  transpose S256x256 [1, 0] (x4) transposes_S256x256_S256x256_1_0
abbrev idx_main_v0 (i : S256x256.Idx) : S256x256.Idx := fun a => match a with
  | ⟨0, _⟩ => ⟨(i 1).val, (i 1).isLt⟩
  | ⟨1, _⟩ => ⟨(i 0).val, (i 0).isLt⟩
theorem val_main_v0_apply (x4 : (⟨S256x256, .f32⟩ : BufTy).Contents (Elt F)) (i : S256x256.Idx) :
    val_main_v0 (F := F) x4 i = x4 (idx_main_v0 i) := by
  unfold val_main_v0
  exact transpose_apply [1, 0] x4 transposes_S256x256_S256x256_1_0 i (idx_main_v0 i) (fun b => match b with
    | ⟨0, _⟩ => rfl
    | ⟨1, _⟩ => rfl)

-- %1 = stablehlo.dot_general %arg1, %0, contracting_dims = [1] x [0], precision = [DEFAULT, DEFAULT] : (tensor<1x256xf32>, tensor<256x256xf32>) -> tensor<1x256xf32>
def val_main_v1 (x1 : (⟨S1x256, .f32⟩ : BufTy).Contents (Elt F)) (x4 : (⟨S256x256, .f32⟩ : BufTy).Contents (Elt F)) : (⟨S1x256, .f32⟩ : BufTy).Contents (Elt F) :=
  Host.dotGeneral dot_S1x256_S256x256_S1x256_1_0_0_1_n_n none (x1) (val_main_v0 (F := F) x4)
theorem lhs_main_v1_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_main_v1_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_main_v1_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_main_v1_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl
abbrev lidx_main_v1 (i : S1x256.Idx) (k : Fin 256) : S1x256.Idx := fun a => match a with
  | ⟨0, _⟩ => ⟨(i 0).val, (i 0).isLt⟩
  | ⟨1, _⟩ => ⟨k.val, k.isLt⟩
abbrev ridx_main_v1 (i : S1x256.Idx) (k : Fin 256) : S256x256.Idx := fun a => match a with
  | ⟨0, _⟩ => ⟨k.val, k.isLt⟩
  | ⟨1, _⟩ => ⟨(i 1).val, (i 1).isLt⟩
/-- Over the extended reals a `dot_general`'s element is the sum, over the contracted coordinate, of the products. -/
theorem val_main_v1_apply (x1 : (⟨S1x256, .f32⟩ : BufTy).Contents (Elt Ideal)) (x4 : (⟨S256x256, .f32⟩ : BufTy).Contents (Elt Ideal)) (i : S1x256.Idx) :
    val_main_v1 (F := Ideal) x1 x4 i = ∑ k : Fin 256, x1 (lidx_main_v1 i k) * (val_main_v0 (F := Ideal) x4) (ridx_main_v1 i k) := by
  unfold val_main_v1
  generalize val_main_v0 (F := Ideal) x4 = y0
  simp only [Host.dotGeneral]
  rw [Ideal.dotGeneral_apply, ← Equiv.sum_comp (ValueIdx.contrEquiv1 dot_S1x256_S256x256_S1x256_1_0_0_1_n_n 256 rfl rfl).symm]
  refine Finset.sum_congr rfl fun k _ => ?_
  have hk := ValueIdx.contrEquiv1_symm_val dot_S1x256_S256x256_S1x256_1_0_0_1_n_n 256 rfl rfl k
  have el : dot_S1x256_S256x256_S1x256_1_0_0_1_n_n.lhsIdx i ((ValueIdx.contrEquiv1 dot_S1x256_S256x256_S1x256_1_0_0_1_n_n 256 rfl rfl).symm k) = lidx_main_v1 i k := funext fun a => Fin.ext (by
    match a with
    | ⟨0, _⟩ => exact lhs_main_v1_0 _ _
    | ⟨1, _⟩ => exact (lhs_main_v1_1 _ _).trans hk)
  have er : dot_S1x256_S256x256_S1x256_1_0_0_1_n_n.rhsIdx i ((ValueIdx.contrEquiv1 dot_S1x256_S256x256_S1x256_1_0_0_1_n_n 256 rfl rfl).symm k) = ridx_main_v1 i k := funext fun a => Fin.ext (by
    match a with
    | ⟨0, _⟩ => exact (rhs_main_v1_0 _ _).trans hk
    | ⟨1, _⟩ => exact rhs_main_v1_1 _ _)
  rw [el, er]

-- %2 = stablehlo.dot_general %arg0, %arg2, contracting_dims = [1] x [0], precision = [DEFAULT, DEFAULT] : (tensor<100000x256xf32>, tensor<256x256xf32>) -> tensor<100000x256xf32>
def val_main_v2 (x0 : (⟨S100000x256, .f32⟩ : BufTy).Contents (Elt F)) (x2 : (⟨S256x256, .f32⟩ : BufTy).Contents (Elt F)) : (⟨S100000x256, .f32⟩ : BufTy).Contents (Elt F) :=
  Host.dotGeneral dot_S100000x256_S256x256_S100000x256_1_0_0_1_n_n none (x0) (x2)
theorem lhs_main_v2_0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem lhs_main_v2_1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
theorem rhs_main_v2_0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
theorem rhs_main_v2_1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl
abbrev lidx_main_v2 (i : S100000x256.Idx) (k : Fin 256) : S100000x256.Idx := fun a => match a with
  | ⟨0, _⟩ => ⟨(i 0).val, (i 0).isLt⟩
  | ⟨1, _⟩ => ⟨k.val, k.isLt⟩
abbrev ridx_main_v2 (i : S100000x256.Idx) (k : Fin 256) : S256x256.Idx := fun a => match a with
  | ⟨0, _⟩ => ⟨k.val, k.isLt⟩
  | ⟨1, _⟩ => ⟨(i 1).val, (i 1).isLt⟩
/-- Over the extended reals a `dot_general`'s element is the sum, over the contracted coordinate, of the products. -/
theorem val_main_v2_apply (x0 : (⟨S100000x256, .f32⟩ : BufTy).Contents (Elt Ideal)) (x2 : (⟨S256x256, .f32⟩ : BufTy).Contents (Elt Ideal)) (i : S100000x256.Idx) :
    val_main_v2 (F := Ideal) x0 x2 i = ∑ k : Fin 256, x0 (lidx_main_v2 i k) * x2 (ridx_main_v2 i k) := by
  unfold val_main_v2
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx i ((ValueIdx.contrEquiv1 dot_S100000x256_S256x256_S100000x256_1_0_0_1_n_n 256 rfl rfl).symm k) = lidx_main_v2 i k := funext fun a => Fin.ext (by
    match a with
    | ⟨0, _⟩ => exact lhs_main_v2_0 _ _
    | ⟨1, _⟩ => exact (lhs_main_v2_1 _ _).trans hk)
  have er : dot_S100000x256_S256x256_S100000x256_1_0_0_1_n_n.rhsIdx i ((ValueIdx.contrEquiv1 dot_S100000x256_S256x256_S100000x256_1_0_0_1_n_n 256 rfl rfl).symm k) = ridx_main_v2 i k := funext fun a => Fin.ext (by
    match a with
    | ⟨0, _⟩ => exact (rhs_main_v2_0 _ _).trans hk
    | ⟨1, _⟩ => exact rhs_main_v2_1 _ _)
  rw [el, er]

-- %3 = stablehlo.broadcast_in_dim %1, dims = [0, 1] : (tensor<1x256xf32>) -> tensor<100000x256xf32>
def val_main_v3 (x1 : (⟨S1x256, .f32⟩ : BufTy).Contents (Elt F)) (x4 : (⟨S256x256, .f32⟩ : BufTy).Contents (Elt F)) : (⟨S100000x256, .f32⟩ : BufTy).Contents (Elt F) :=
  broadcastInDim S100000x256 ![0, 1] bcast_S1x256_S100000x256_0_1 (val_main_v1 (F := F) x1 x4)
abbrev idx_main_v3 (i : S100000x256.Idx) : S1x256.Idx := fun a => match a with
  | ⟨0, _⟩ => ⟨0, Nat.one_pos⟩
  | ⟨1, _⟩ => ⟨(i 1).val, (i 1).isLt⟩
theorem val_main_v3_apply (x1 : (⟨S1x256, .f32⟩ : BufTy).Contents (Elt F)) (x4 : (⟨S256x256, .f32⟩ : BufTy).Contents (Elt F)) (i : S100000x256.Idx) :
    val_main_v3 (F := F) x1 x4 i = val_main_v1 (F := F) x1 x4 (idx_main_v3 i) := by
  unfold val_main_v3
  generalize val_main_v1 (F := F) x1 x4 = y
  exact broadcastInDim_apply _ bcast_S1x256_S100000x256_0_1 y i (idx_main_v3 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

-- %4 = stablehlo.add %2, %3 : tensor<100000x256xf32>
def val_main_v4 (x0 : (⟨S100000x256, .f32⟩ : BufTy).Contents (Elt F)) (x1 : (⟨S1x256, .f32⟩ : BufTy).Contents (Elt F)) (x2 x4 : (⟨S256x256, .f32⟩ : BufTy).Contents (Elt F)) : (⟨S100000x256, .f32⟩ : BufTy).Contents (Elt F) :=
  addf (val_main_v2 (F := F) x0 x2) (val_main_v3 (F := F) x1 x4)
theorem val_main_v4_apply (x0 : (⟨S100000x256, .f32⟩ : BufTy).Contents (Elt F)) (x1 : (⟨S1x256, .f32⟩ : BufTy).Contents (Elt F)) (x2 x4 : (⟨S256x256, .f32⟩ : BufTy).Contents (Elt F)) (i : S100000x256.Idx) :
    val_main_v4 (F := F) x0 x1 x2 x4 i = FloatOps.addf (val_main_v2 (F := F) x0 x2 i) (val_main_v3 (F := F) x1 x4 i) := rfl

-- %5 = stablehlo.tanh %4 : tensor<100000x256xf32>
def val_main_v5 (x0 : (⟨S100000x256, .f32⟩ : BufTy).Contents (Elt F)) (x1 : (⟨S1x256, .f32⟩ : BufTy).Contents (Elt F)) (x2 x4 : (⟨S256x256, .f32⟩ : BufTy).Contents (Elt F)) : (⟨S100000x256, .f32⟩ : BufTy).Contents (Elt F) :=
  Host.tanh (val_main_v4 (F := F) x0 x1 x2 x4)
theorem val_main_v5_apply (x0 : (⟨S100000x256, .f32⟩ : BufTy).Contents (Elt F)) (x1 : (⟨S1x256, .f32⟩ : BufTy).Contents (Elt F)) (x2 x4 : (⟨S256x256, .f32⟩ : BufTy).Contents (Elt F)) (i : S100000x256.Idx) :
    val_main_v5 (F := F) x0 x1 x2 x4 i = FloatOps.hostUnary .tanh (val_main_v4 (F := F) x0 x1 x2 x4 i) := rfl

-- %6 = stablehlo.dot_general %5, %arg3, contracting_dims = [1] x [0], precision = [DEFAULT, DEFAULT] : (tensor<100000x256xf32>, tensor<256x1xf32>) -> tensor<100000x1xf32>
def val_main_v6 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S100000x1, .f32⟩ : BufTy).Contents (Elt F) :=
  Host.dotGeneral dot_S100000x256_S256x1_S100000x1_1_0_0_1_n_n none (val_main_v5 (F := F) x0 x1 x2 x4) (x3)
theorem lhs_main_v6_0 (i : S100000x1.Idx) (q : dot_S100000x256_S256x1_S100000x1_1_0_0_1_n_n.contr.Idx) :
    (dot_S100000x256_S256x1_S100000x1_1_0_0_1_n_n.lhsIdx i q 0).val = (i 0).val := by
  unfold DotDims.lhsIdx
  rw [dif_neg (show ¬(0 : Fin S100000x256.rank) ∈ dot_S100000x256_S256x1_S100000x1_1_0_0_1_n_n.lhsBatch by decide), dif_pos (show (0 : Fin S100000x256.rank) ∈ dot_S100000x256_S256x1_S100000x1_1_0_0_1_n_n.lhsNonContracting by decide)]
  rfl
theorem lhs_main_v6_1 (i : S100000x1.Idx) (q : dot_S100000x256_S256x1_S100000x1_1_0_0_1_n_n.contr.Idx) :
    (dot_S100000x256_S256x1_S100000x1_1_0_0_1_n_n.lhsIdx i q 1).val = (q ⟨0, by decide⟩).val :=
  dot_S100000x256_S256x1_S100000x1_1_0_0_1_n_n.lhsIdx_val_of_single rfl i q
theorem rhs_main_v6_0 (i : S100000x1.Idx) (q : dot_S100000x256_S256x1_S100000x1_1_0_0_1_n_n.contr.Idx) :
    (dot_S100000x256_S256x1_S100000x1_1_0_0_1_n_n.rhsIdx i q 0).val = (q ⟨0, by decide⟩).val :=
  dot_S100000x256_S256x1_S100000x1_1_0_0_1_n_n.rhsIdx_val_of_single rfl i q
theorem rhs_main_v6_1 (i : S100000x1.Idx) (q : dot_S100000x256_S256x1_S100000x1_1_0_0_1_n_n.contr.Idx) :
    (dot_S100000x256_S256x1_S100000x1_1_0_0_1_n_n.rhsIdx i q 1).val = (i 1).val := by
  unfold DotDims.rhsIdx
  rw [dif_neg (show ¬(1 : Fin S256x1.rank) ∈ dot_S100000x256_S256x1_S100000x1_1_0_0_1_n_n.rhsBatch by decide), dif_pos (show (1 : Fin S256x1.rank) ∈ dot_S100000x256_S256x1_S100000x1_1_0_0_1_n_n.rhsNonContracting by decide)]
  rfl
abbrev lidx_main_v6 (i : S100000x1.Idx) (k : Fin 256) : S100000x256.Idx := fun a => match a with
  | ⟨0, _⟩ => ⟨(i 0).val, (i 0).isLt⟩
  | ⟨1, _⟩ => ⟨k.val, k.isLt⟩
abbrev ridx_main_v6 (i : S100000x1.Idx) (k : Fin 256) : S256x1.Idx := fun a => match a with
  | ⟨0, _⟩ => ⟨k.val, k.isLt⟩
  | ⟨1, _⟩ => ⟨(i 1).val, (i 1).isLt⟩
/-- Over the extended reals a `dot_general`'s element is the sum, over the contracted coordinate, of the products. -/
theorem val_main_v6_apply (x0 : (⟨S100000x256, .f32⟩ : BufTy).Contents (Elt Ideal)) (x1 : (⟨S1x256, .f32⟩ : BufTy).Contents (Elt Ideal)) (x2 : (⟨S256x256, .f32⟩ : BufTy).Contents (Elt Ideal)) (x3 : (⟨S256x1, .f32⟩ : BufTy).Contents (Elt Ideal)) (x4 : (⟨S256x256, .f32⟩ : BufTy).Contents (Elt Ideal)) (i : S100000x1.Idx) :
    val_main_v6 (F := Ideal) x0 x1 x2 x3 x4 i = ∑ k : Fin 256, (val_main_v5 (F := Ideal) x0 x1 x2 x4) (lidx_main_v6 i k) * x3 (ridx_main_v6 i k) := by
  unfold val_main_v6
  generalize val_main_v5 (F := Ideal) x0 x1 x2 x4 = y0
  simp only [Host.dotGeneral]
  rw [Ideal.dotGeneral_apply, ← Equiv.sum_comp (ValueIdx.contrEquiv1 dot_S100000x256_S256x1_S100000x1_1_0_0_1_n_n 256 rfl rfl).symm]
  refine Finset.sum_congr rfl fun k _ => ?_
  have hk := ValueIdx.contrEquiv1_symm_val dot_S100000x256_S256x1_S100000x1_1_0_0_1_n_n 256 rfl rfl k
  have el : dot_S100000x256_S256x1_S100000x1_1_0_0_1_n_n.lhsIdx i ((ValueIdx.contrEquiv1 dot_S100000x256_S256x1_S100000x1_1_0_0_1_n_n 256 rfl rfl).symm k) = lidx_main_v6 i k := funext fun a => Fin.ext (by
    match a with
    | ⟨0, _⟩ => exact lhs_main_v6_0 _ _
    | ⟨1, _⟩ => exact (lhs_main_v6_1 _ _).trans hk)
  have er : dot_S100000x256_S256x1_S100000x1_1_0_0_1_n_n.rhsIdx i ((ValueIdx.contrEquiv1 dot_S100000x256_S256x1_S100000x1_1_0_0_1_n_n 256 rfl rfl).symm k) = ridx_main_v6 i k := funext fun a => Fin.ext (by
    match a with
    | ⟨0, _⟩ => exact (rhs_main_v6_0 _ _).trans hk
    | ⟨1, _⟩ => exact rhs_main_v6_1 _ _)
  rw [el, er]

-- %7 = stablehlo.reshape %6 : (tensor<100000x1xf32>) -> tensor<1x100000xf32>
def val_main_v7 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  shapeCast _ (val_main_v6 (F := F) x0 x1 x2 x3 x4) shapeCasts_S100000x1_S1x100000
abbrev idx_main_v7 (i : S1x100000.Idx) : S100000x1.Idx := fun a => match a with
  | ⟨0, _⟩ => ⟨((i 0).val * 100000 + (i 1).val) / 1, by have h0 : (i 0).val < 1 := (i 0).isLt; have h1 : (i 1).val < 100000 := (i 1).isLt; show ((i 0).val * 100000 + (i 1).val) / 1 < 100000; omega⟩
  | ⟨1, _⟩ => ⟨0, Nat.one_pos⟩
theorem val_main_v7_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_v7 (F := F) x0 x1 x2 x3 x4 i = val_main_v6 (F := F) x0 x1 x2 x3 x4 (idx_main_v7 i) := by
  unfold val_main_v7
  generalize val_main_v6 (F := F) x0 x1 x2 x3 x4 = y
  exact shapeCast_apply y shapeCasts_S100000x1_S1x100000 i (idx_main_v7 i)
    (by rewrite [Shape.rowMajor_val_two, Shape.rowMajor_val_two]; have h0 : (i 0).val < 1 := (i 0).isLt; have h1 : (i 1).val < 100000 := (i 1).isLt; show ((i 0).val * 100000 + (i 1).val) / 1 * 1 + 0 = (i 0).val * 100000 + (i 1).val; omega)

-- the log-softmax's %cst = stablehlo.constant dense<0xFF800000> : tensor<f32>, in %8 = func.call @log_softmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @log_softmax's %0 = stablehlo.reduce(%arg0 init: %cst) applies stablehlo.maximum across dimensions = [1] : (tensor<1x100000xf32>, tensor<f32>) -> tensor<1xf32> {, in %8 = func.call @log_softmax(…) (record main_call0)
def val_main_call0_v0 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1, .f32⟩ : BufTy).Contents (Elt F) :=
  Host.reduce FloatOps.maximumf (val_main_v7 (F := F) x0 x1 x2 x3 x4) (val_main_call0_cst (F := F)) reducesTo_S1x100000_S1_d1 h_S_

-- @log_softmax's %cst_0 = stablehlo.constant dense<0xFF800000> : tensor<f32>, in %8 = func.call @log_softmax(…) (record main_call0)
def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

-- @log_softmax's %1 = stablehlo.broadcast_in_dim %cst_0, dims = [] : (tensor<f32>) -> tensor<1xf32>, in %8 = func.call @log_softmax(…) (record main_call0)
def val_main_call0_v1 : (⟨S1, .f32⟩ : BufTy).Contents (Elt F) :=
  broadcastInDim S1 ![] bcast_S_S1 (val_main_call0_cst_0 (F := F))
abbrev idx_main_call0_v1 (i : S1.Idx) : S_.Idx := fun a => a.elim0
theorem val_main_call0_v1_apply (i : S1.Idx) :
    val_main_call0_v1 (F := F) i = val_main_call0_cst_0 (F := F) (idx_main_call0_v1 i) := by
  unfold val_main_call0_v1
  generalize val_main_call0_cst_0 (F := F) = y
  exact broadcastInDim_apply _ bcast_S_S1 y i (idx_main_call0_v1 i) (fun a => a.elim0)

-- @log_softmax's %2 = stablehlo.maximum %1, %0 : tensor<1xf32>, in %8 = func.call @log_softmax(…) (record main_call0)
def val_main_call0_v2 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1, .f32⟩ : BufTy).Contents (Elt F) :=
  maximumf (val_main_call0_v1 (F := F)) (val_main_call0_v0 (F := F) x0 x1 x2 x3 x4)
theorem val_main_call0_v2_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1.Idx) :
    val_main_call0_v2 (F := F) x0 x1 x2 x3 x4 i = FloatOps.maximumf (val_main_call0_v1 (F := F) i) (val_main_call0_v0 (F := F) x0 x1 x2 x3 x4 i) := rfl

-- @log_softmax's %3 = stablehlo.broadcast_in_dim %2, dims = [0] : (tensor<1xf32>) -> tensor<1x1xf32>, in %8 = func.call @log_softmax(…) (record main_call0)
def val_main_call0_v3 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x1, .f32⟩ : BufTy).Contents (Elt F) :=
  broadcastInDim S1x1 ![0] bcast_S1_S1x1_0 (val_main_call0_v2 (F := F) x0 x1 x2 x3 x4)
abbrev idx_main_call0_v3 (i : S1x1.Idx) : S1.Idx := fun a => match a with
  | ⟨0, _⟩ => ⟨0, Nat.one_pos⟩
theorem val_main_call0_v3_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x1.Idx) :
    val_main_call0_v3 (F := F) x0 x1 x2 x3 x4 i = val_main_call0_v2 (F := F) x0 x1 x2 x3 x4 (idx_main_call0_v3 i) := by
  unfold val_main_call0_v3
  generalize val_main_call0_v2 (F := F) x0 x1 x2 x3 x4 = y
  exact broadcastInDim_apply _ bcast_S1_S1x1_0 y i (idx_main_call0_v3 i) (fun a => match a with
    | ⟨0, _⟩ => by show 0 = if (1 : Nat) = 1 then 0 else (i 0).val; rw [if_pos rfl])

-- @log_softmax's %4 = stablehlo.broadcast_in_dim %3, dims = [0, 1] : (tensor<1x1xf32>) -> tensor<1x100000xf32>, in %8 = func.call @log_softmax(…) (record main_call0)
def val_main_call0_v4 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  broadcastInDim S1x100000 ![0, 1] bcast_S1x1_S1x100000_0_1 (val_main_call0_v3 (F := F) x0 x1 x2 x3 x4)
abbrev idx_main_call0_v4 (i : S1x100000.Idx) : S1x1.Idx := fun a => match a with
  | ⟨0, _⟩ => ⟨0, Nat.one_pos⟩
  | ⟨1, _⟩ => ⟨0, Nat.one_pos⟩
theorem val_main_call0_v4_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_call0_v4 (F := F) x0 x1 x2 x3 x4 i = val_main_call0_v3 (F := F) x0 x1 x2 x3 x4 (idx_main_call0_v4 i) := by
  unfold val_main_call0_v4
  generalize val_main_call0_v3 (F := F) x0 x1 x2 x3 x4 = y
  exact broadcastInDim_apply _ bcast_S1x1_S1x100000_0_1 y i (idx_main_call0_v4 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- @log_softmax's %5 = stablehlo.subtract %arg0, %4 : tensor<1x100000xf32>, in %8 = func.call @log_softmax(…) (record main_call0)
def val_main_call0_v5 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  subf (val_main_v7 (F := F) x0 x1 x2 x3 x4) (val_main_call0_v4 (F := F) x0 x1 x2 x3 x4)
theorem val_main_call0_v5_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_call0_v5 (F := F) x0 x1 x2 x3 x4 i = FloatOps.subf (val_main_v7 (F := F) x0 x1 x2 x3 x4 i) (val_main_call0_v4 (F := F) x0 x1 x2 x3 x4 i) := rfl

-- @log_softmax's %6 = stablehlo.exponential %5 : tensor<1x100000xf32>, in %8 = func.call @log_softmax(…) (record main_call0)
def val_main_call0_v6 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  Host.exp (val_main_call0_v5 (F := F) x0 x1 x2 x3 x4)
theorem val_main_call0_v6_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_call0_v6 (F := F) x0 x1 x2 x3 x4 i = FloatOps.hostUnary .exp (val_main_call0_v5 (F := F) x0 x1 x2 x3 x4 i) := rfl

-- @log_softmax's %cst_1 = stablehlo.constant dense<0.000000e+00> : tensor<f32>, in %8 = func.call @log_softmax(…) (record main_call0)
def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

-- @log_softmax's %7 = stablehlo.reduce(%6 init: %cst_1) applies stablehlo.add across dimensions = [1] : (tensor<1x100000xf32>, tensor<f32>) -> tensor<1xf32> {, in %8 = func.call @log_softmax(…) (record main_call0)
def val_main_call0_v7 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1, .f32⟩ : BufTy).Contents (Elt F) :=
  Host.reduceAdd (val_main_call0_v6 (F := F) x0 x1 x2 x3 x4) (val_main_call0_cst_1 (F := F)) reducesTo_S1x100000_S1_d1 h_S_
abbrev idx_main_call0_v7 (i : S1.Idx) (k : Fin 100000) : S1x100000.Idx := fun a => match a with
  | ⟨0, _⟩ => ⟨(i 0).val, (i 0).isLt⟩
  | ⟨1, _⟩ => ⟨k.val, k.isLt⟩
/-- Over the extended reals the float sum's element is the initial value plus the sum over the summed coordinate. -/
theorem val_main_call0_v7_apply (x0 : (⟨S100000x256, .f32⟩ : BufTy).Contents (Elt Ideal)) (x1 : (⟨S1x256, .f32⟩ : BufTy).Contents (Elt Ideal)) (x2 : (⟨S256x256, .f32⟩ : BufTy).Contents (Elt Ideal)) (x3 : (⟨S256x1, .f32⟩ : BufTy).Contents (Elt Ideal)) (x4 : (⟨S256x256, .f32⟩ : BufTy).Contents (Elt Ideal)) (i : S1.Idx) :
    val_main_call0_v7 (F := Ideal) x0 x1 x2 x3 x4 i = (val_main_call0_cst_1 (F := Ideal)) (Shape.Idx.first h_S_) + ∑ k : Fin 100000, (val_main_call0_v6 (F := Ideal) x0 x1 x2 x3 x4) (idx_main_call0_v7 i k) := by
  unfold val_main_call0_v7
  generalize val_main_call0_v6 (F := Ideal) x0 x1 x2 x3 x4 = y0
  simp only [Host.reduceAdd, Ideal.hostReduceAdd_def]
  rw [Ideal.hostReduceAdd_single reducesTo_S1x100000_S1_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<1xf32>) -> tensor<1x1xf32>, in %8 = func.call @log_softmax(…) (record main_call0)
def val_main_call0_v8 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x1, .f32⟩ : BufTy).Contents (Elt F) :=
  broadcastInDim S1x1 ![0] bcast_S1_S1x1_0 (val_main_call0_v7 (F := F) x0 x1 x2 x3 x4)
abbrev idx_main_call0_v8 (i : S1x1.Idx) : S1.Idx := fun a => match a with
  | ⟨0, _⟩ => ⟨0, Nat.one_pos⟩
theorem val_main_call0_v8_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x1.Idx) :
    val_main_call0_v8 (F := F) x0 x1 x2 x3 x4 i = val_main_call0_v7 (F := F) x0 x1 x2 x3 x4 (idx_main_call0_v8 i) := by
  unfold val_main_call0_v8
  generalize val_main_call0_v7 (F := F) x0 x1 x2 x3 x4 = y
  exact broadcastInDim_apply _ bcast_S1_S1x1_0 y i (idx_main_call0_v8 i) (fun a => match a with
    | ⟨0, _⟩ => by show 0 = if (1 : Nat) = 1 then 0 else (i 0).val; rw [if_pos rfl])

-- @log_softmax's %9 = stablehlo.log %8 : tensor<1x1xf32>, in %8 = func.call @log_softmax(…) (record main_call0)
def val_main_call0_v9 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x1, .f32⟩ : BufTy).Contents (Elt F) :=
  Host.log (val_main_call0_v8 (F := F) x0 x1 x2 x3 x4)
theorem val_main_call0_v9_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x1.Idx) :
    val_main_call0_v9 (F := F) x0 x1 x2 x3 x4 i = FloatOps.hostUnary .log (val_main_call0_v8 (F := F) x0 x1 x2 x3 x4 i) := rfl

-- @log_softmax's %10 = stablehlo.broadcast_in_dim %9, dims = [0, 1] : (tensor<1x1xf32>) -> tensor<1x100000xf32>, in %8 = func.call @log_softmax(…) (record main_call0)
def val_main_call0_v10 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  broadcastInDim S1x100000 ![0, 1] bcast_S1x1_S1x100000_0_1 (val_main_call0_v9 (F := F) x0 x1 x2 x3 x4)
abbrev idx_main_call0_v10 (i : S1x100000.Idx) : S1x1.Idx := fun a => match a with
  | ⟨0, _⟩ => ⟨0, Nat.one_pos⟩
  | ⟨1, _⟩ => ⟨0, Nat.one_pos⟩
theorem val_main_call0_v10_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_call0_v10 (F := F) x0 x1 x2 x3 x4 i = val_main_call0_v9 (F := F) x0 x1 x2 x3 x4 (idx_main_call0_v10 i) := by
  unfold val_main_call0_v10
  generalize val_main_call0_v9 (F := F) x0 x1 x2 x3 x4 = y
  exact broadcastInDim_apply _ bcast_S1x1_S1x100000_0_1 y i (idx_main_call0_v10 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- %8 = func.call @log_softmax(…) (record main_call0) result 0: @log_softmax's %11 = stablehlo.subtract %5, %10 : tensor<1x100000xf32>
def val_main_v8 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x100000, .f32⟩ : BufTy).Contents (Elt F) :=
  subf (val_main_call0_v5 (F := F) x0 x1 x2 x3 x4) (val_main_call0_v10 (F := F) x0 x1 x2 x3 x4)
theorem val_main_v8_apply (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) (i : S1x100000.Idx) :
    val_main_v8 (F := F) x0 x1 x2 x3 x4 i = FloatOps.subf (val_main_call0_v5 (F := F) x0 x1 x2 x3 x4 i) (val_main_call0_v10 (F := F) x0 x1 x2 x3 x4 i) := rfl

-- %9 = stablehlo.dot_general %8, %arg0, contracting_dims = [1] x [0], precision = [DEFAULT, DEFAULT] : (tensor<1x100000xf32>, tensor<100000x256xf32>) -> tensor<1x256xf32>
def val_main_v9 (x0 : (⟨S100000x256, .f32⟩ : BufTy).Contents (Elt F)) (x1 : (⟨S1x256, .f32⟩ : BufTy).Contents (Elt F)) (x2 : (⟨S256x256, .f32⟩ : BufTy).Contents (Elt F)) (x3 : (⟨S256x1, .f32⟩ : BufTy).Contents (Elt F)) (x4 : (⟨S256x256, .f32⟩ : BufTy).Contents (Elt F)) : (⟨S1x256, .f32⟩ : BufTy).Contents (Elt F) :=
  Host.dotGeneral dot_S1x100000_S100000x256_S1x256_1_0_0_1_n_n none (val_main_v8 (F := F) x0 x1 x2 x3 x4) (x0)
theorem lhs_main_v9_0 (i : S1x256.Idx) (q : dot_S1x100000_S100000x256_S1x256_1_0_0_1_n_n.contr.Idx) :
    (dot_S1x100000_S100000x256_S1x256_1_0_0_1_n_n.lhsIdx i q 0).val = (i 0).val := by
  unfold DotDims.lhsIdx
  rw [dif_neg (show ¬(0 : Fin S1x100000.rank) ∈ dot_S1x100000_S100000x256_S1x256_1_0_0_1_n_n.lhsBatch by decide), dif_pos (show (0 : Fin S1x100000.rank) ∈ dot_S1x100000_S100000x256_S1x256_1_0_0_1_n_n.lhsNonContracting by decide)]
  rfl
theorem lhs_main_v9_1 (i : S1x256.Idx) (q : dot_S1x100000_S100000x256_S1x256_1_0_0_1_n_n.contr.Idx) :
    (dot_S1x100000_S100000x256_S1x256_1_0_0_1_n_n.lhsIdx i q 1).val = (q ⟨0, by decide⟩).val :=
  dot_S1x100000_S100000x256_S1x256_1_0_0_1_n_n.lhsIdx_val_of_single rfl i q
theorem rhs_main_v9_0 (i : S1x256.Idx) (q : dot_S1x100000_S100000x256_S1x256_1_0_0_1_n_n.contr.Idx) :
    (dot_S1x100000_S100000x256_S1x256_1_0_0_1_n_n.rhsIdx i q 0).val = (q ⟨0, by decide⟩).val :=
  dot_S1x100000_S100000x256_S1x256_1_0_0_1_n_n.rhsIdx_val_of_single rfl i q
theorem rhs_main_v9_1 (i : S1x256.Idx) (q : dot_S1x100000_S100000x256_S1x256_1_0_0_1_n_n.contr.Idx) :
    (dot_S1x100000_S100000x256_S1x256_1_0_0_1_n_n.rhsIdx i q 1).val = (i 1).val := by
  unfold DotDims.rhsIdx
  rw [dif_neg (show ¬(1 : Fin S100000x256.rank) ∈ dot_S1x100000_S100000x256_S1x256_1_0_0_1_n_n.rhsBatch by decide), dif_pos (show (1 : Fin S100000x256.rank) ∈ dot_S1x100000_S100000x256_S1x256_1_0_0_1_n_n.rhsNonContracting by decide)]
  rfl
abbrev lidx_main_v9 (i : S1x256.Idx) (k : Fin 100000) : S1x100000.Idx := fun a => match a with
  | ⟨0, _⟩ => ⟨(i 0).val, (i 0).isLt⟩
  | ⟨1, _⟩ => ⟨k.val, k.isLt⟩
abbrev ridx_main_v9 (i : S1x256.Idx) (k : Fin 100000) : S100000x256.Idx := fun a => match a with
  | ⟨0, _⟩ => ⟨k.val, k.isLt⟩
  | ⟨1, _⟩ => ⟨(i 1).val, (i 1).isLt⟩
/-- Over the extended reals a `dot_general`'s element is the sum, over the contracted coordinate, of the products. -/
theorem val_main_v9_apply (x0 : (⟨S100000x256, .f32⟩ : BufTy).Contents (Elt Ideal)) (x1 : (⟨S1x256, .f32⟩ : BufTy).Contents (Elt Ideal)) (x2 : (⟨S256x256, .f32⟩ : BufTy).Contents (Elt Ideal)) (x3 : (⟨S256x1, .f32⟩ : BufTy).Contents (Elt Ideal)) (x4 : (⟨S256x256, .f32⟩ : BufTy).Contents (Elt Ideal)) (i : S1x256.Idx) :
    val_main_v9 (F := Ideal) x0 x1 x2 x3 x4 i = ∑ k : Fin 100000, (val_main_v8 (F := Ideal) x0 x1 x2 x3 x4) (lidx_main_v9 i k) * x0 (ridx_main_v9 i k) := by
  unfold val_main_v9
  generalize val_main_v8 (F := Ideal) x0 x1 x2 x3 x4 = y0
  simp only [Host.dotGeneral]
  rw [Ideal.dotGeneral_apply, ← Equiv.sum_comp (ValueIdx.contrEquiv1 dot_S1x100000_S100000x256_S1x256_1_0_0_1_n_n 100000 rfl rfl).symm]
  refine Finset.sum_congr rfl fun k _ => ?_
  have hk := ValueIdx.contrEquiv1_symm_val dot_S1x100000_S100000x256_S1x256_1_0_0_1_n_n 100000 rfl rfl k
  have el : dot_S1x100000_S100000x256_S1x256_1_0_0_1_n_n.lhsIdx i ((ValueIdx.contrEquiv1 dot_S1x100000_S100000x256_S1x256_1_0_0_1_n_n 100000 rfl rfl).symm k) = lidx_main_v9 i k := funext fun a => Fin.ext (by
    match a with
    | ⟨0, _⟩ => exact lhs_main_v9_0 _ _
    | ⟨1, _⟩ => exact (lhs_main_v9_1 _ _).trans hk)
  have er : dot_S1x100000_S100000x256_S1x256_1_0_0_1_n_n.rhsIdx i ((ValueIdx.contrEquiv1 dot_S1x100000_S100000x256_S1x256_1_0_0_1_n_n 100000 rfl rfl).symm k) = ridx_main_v9 i k := funext fun a => Fin.ext (by
    match a with
    | ⟨0, _⟩ => exact (rhs_main_v9_0 _ _).trans hk
    | ⟨1, _⟩ => exact rhs_main_v9_1 _ _)
  rw [el, er]

end Cert.RefRead

end
-- ==== Proof.RefSide.lean ====
/-
  The reference program read at an index. Its two results are the one-pass log-softmax of the scores and the rows
  weighted by it: stage by stage, the transposed-weight product is the projected context, the pre-activation is the
  row's product with the weight plus that context, the score is the sum over the hidden units of its hyperbolic
  tangent times the output weight, the reduce with a maximum body from −∞ is the fold of `max` over all scores, the
  shifted scores are exponentiated and summed from zero, and the result subtracts the logarithm of that sum.
-/
import proofs.«159929_j42305427865723_1_alg».proof.Proof.RefRead
import proofs.«159929_j42305427865723_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RefSide

open Idealize.ShloMosaic Idealize.ShloMosaic.ValueIdx Cert.ReferenceIdeal Cert.ReferenceIdeal.Gen Cert.RefRead

/-! ## The index functions of the stages, at coordinates -/

/-- The only element of `Fin 1`. -/
theorem fin1_eq (u : Fin 1) : u = 0 := Fin.ext (by omega)

/-- The transpose reads (k, j) at (j, k). -/
theorem idx_v0 (a b : Fin 256) : idx_main_v0 (ix2 a b) = ix2 b a := by
  funext d; match d with | ⟨0, _⟩ => rfl | ⟨1, _⟩ => rfl

theorem lidx_v1 (u : Fin 1) (k j : Fin 256) : lidx_main_v1 (ix2 u k) j = ix2 u j := by
  funext d; match d with | ⟨0, _⟩ => rfl | ⟨1, _⟩ => rfl

theorem ridx_v1 (u : Fin 1) (k j : Fin 256) : ridx_main_v1 (ix2 u k) j = ix2 j k := by
  funext d; match d with | ⟨0, _⟩ => rfl | ⟨1, _⟩ => rfl

theorem lidx_v2 (r : Fin 100000) (k j : Fin 256) : lidx_main_v2 (ix2 r k) j = ix2 r j := by
  funext d; match d with | ⟨0, _⟩ => rfl | ⟨1, _⟩ => rfl

theorem ridx_v2 (r : Fin 100000) (k j : Fin 256) : ridx_main_v2 (ix2 r k) j = ix2 j k := by
  funext d; match d with | ⟨0, _⟩ => rfl | ⟨1, _⟩ => rfl

theorem idx_v3 (r : Fin 100000) (k : Fin 256) : idx_main_v3 (ix2 r k) = ix2 (0 : Fin 1) k := by
  funext d; match d with | ⟨0, _⟩ => rfl | ⟨1, _⟩ => rfl

theorem lidx_v6 (r : Fin 100000) (u : Fin 1) (k : Fin 256) : lidx_main_v6 (ix2 r u) k = ix2 r k := by
  funext d; match d with | ⟨0, _⟩ => rfl | ⟨1, _⟩ => rfl

theorem ridx_v6 (r : Fin 100000) (u : Fin 1) (k : Fin 256) : ridx_main_v6 (ix2 r u) k = ix2 k u := by
  funext d; match d with | ⟨0, _⟩ => rfl | ⟨1, _⟩ => rfl

/-- The reshape of the score column to a row reads (0, r) at (r, 0). -/
theorem idx_v7 (r : Fin 100000) : idx_main_v7 (ix2 (0 : Fin 1) r) = ix2 r (0 : Fin 1) := by
  funext d
  match d with
  | ⟨0, _⟩ => exact Fin.ext (by show (0 * 100000 + r.val) / 1 = r.val; omega)
  | ⟨1, _⟩ => rfl

theorem lidx_v9 (u : Fin 1) (h : Fin 256) (k : Fin 100000) : lidx_main_v9 (ix2 u h) k = ix2 u k := by
  funext d; match d with | ⟨0, _⟩ => rfl | ⟨1, _⟩ => rfl

theorem ridx_v9 (u : Fin 1) (h : Fin 256) (k : Fin 100000) : ridx_main_v9 (ix2 u h) k = ix2 k h := by
  funext d; match d with | ⟨0, _⟩ => rfl | ⟨1, _⟩ => rfl

/-- A rank-1 index of extent one is the index 0. -/
theorem idx1_eq (j : S1.Idx) : j = ix1 (0 : Fin 1) := by
  funext d
  match d with
  | ⟨0, _⟩ => exact Fin.ext (by show (j 0).val = 0; have : (j 0).val < 1 := (j 0).isLt; omega)

/-- Every index of the 1×1 shape reads the same element of a length-one array. -/
theorem idx_c3 (i : S1x1.Idx) : idx_main_call0_v3 i = ix1 (0 : Fin 1) := idx1_eq _

theorem idx_c8 (i : S1x1.Idx) : idx_main_call0_v8 i = ix1 (0 : Fin 1) := idx1_eq _

/-- The sum's index with the summed coordinate `k` put in is (0, k). -/
theorem idx_c7 (j : S1.Idx) (k : Fin 100000) : idx_main_call0_v7 j k = ix2 (0 : Fin 1) k := by
  funext d
  match d with
  | ⟨0, _⟩ => exact Fin.ext (by show (j 0).val = 0; have : (j 0).val < 1 := (j 0).isLt; omega)
  | ⟨1, _⟩ => rfl

/-- The reduced index 0 with the second-axis coordinate `k` put back is (0, k). -/
theorem lift_row1 (h : S1x100000.Reduces [1] S1) (k : Fin (S1x100000.size 1)) :
    h.lift (ix1 (0 : Fin 1)) k = ix2 (0 : Fin 1) (⟨k.val, k.isLt⟩ : Fin 100000) := by
  funext c; apply Fin.ext
  fin_cases c <;> rfl

/-! ## The stages -/

variable (x0 : (⟨S100000x256, .f32⟩ : BufTy).Contents (Elt Ideal)) (x1 : (⟨S1x256, .f32⟩ : BufTy).Contents (Elt Ideal))
  (x2 : (⟨S256x256, .f32⟩ : BufTy).Contents (Elt Ideal)) (x3 : (⟨S256x1, .f32⟩ : BufTy).Contents (Elt Ideal))
  (x4 : (⟨S256x256, .f32⟩ : BufTy).Contents (Elt Ideal))

/-- The context row times the transposed weight is the projected context. -/
theorem v1_apply (k : Fin 256) :
    val_main_v1 (F := Ideal) x1 x4 (ix2 (0 : Fin 1) k) = Cert.Spec.proj x1 x4 k := by
  rw [val_main_v1_apply]
  unfold Cert.Spec.proj
  refine Finset.sum_congr rfl fun j _ => ?_
  rw [val_main_v0_apply, lidx_v1, ridx_v1, idx_v0]

/-- The pre-activation of row `r` at hidden unit `k`. -/
theorem v4_apply (r : Fin 100000) (k : Fin 256) :
    val_main_v4 (F := Ideal) x0 x1 x2 x4 (ix2 r k)
      = (∑ j : Fin 256, x0 (ix2 r j) * x2 (ix2 j k)) + Cert.Spec.proj x1 x4 k := by
  rw [val_main_v4_apply, val_main_v2_apply, val_main_v3_apply, idx_v3, v1_apply, Ideal.addf_def]
  refine congrArg (fun s => s + Cert.Spec.proj x1 x4 k) (Finset.sum_congr rfl fun j _ => ?_)
  rw [lidx_v2, ridx_v2]

/-- The score column at row `r`. -/
theorem v6_apply (r : Fin 100000) :
    val_main_v6 (F := Ideal) x0 x1 x2 x3 x4 (ix2 r (0 : Fin 1))
      = Cert.Spec.scores x0 x2 (Cert.Spec.proj x1 x4) x3 r := by
  rw [val_main_v6_apply]
  unfold Cert.Spec.scores Cert.Spec.score
  refine Finset.sum_congr rfl fun k _ => ?_
  rw [lidx_v6, ridx_v6, val_main_v5_apply, v4_apply, Ideal.hostUnary_tanh_def]

/-- The score row at column `r`. -/
theorem v7_apply (r : Fin 100000) :
    val_main_v7 (F := Ideal) x0 x1 x2 x3 x4 (ix2 (0 : Fin 1) r)
      = Cert.Spec.scores x0 x2 (Cert.Spec.proj x1 x4) x3 r := by
  rw [val_main_v7_apply, idx_v7, v6_apply]

/-- The reduce with a maximum body, from −∞, over the score row: the fold of `max` over all scores. -/
theorem call0_v0_apply (j : S1.Idx) :
    val_main_call0_v0 (F := Ideal) x0 x1 x2 x3 x4 j
      = (Finset.univ : Finset (Fin 100000)).fold max Cert.Spec.negInf (Cert.Spec.scores x0 x2 (Cert.Spec.proj x1 x4) x3) := by
  have hR : S1x100000.Reduces [1] S1 := by decide
  unfold val_main_call0_v0
  rw [Host.reduce_eq_fold_single FloatOps.maximumf _ _ reducesTo_S1x100000_S1_d1 hR h_S_, val_main_call0_cst_apply,
    Ideal.ofBits_def]
  have hf : (val_main_v7 (F := Ideal) x0 x1 x2 x3 x4 ∘ hR.lift j)
      = fun k : Fin 100000 => Cert.Spec.scores x0 x2 (Cert.Spec.proj x1 x4) x3 k := funext fun k => by
    show val_main_v7 (F := Ideal) x0 x1 x2 x3 x4 (hR.lift j k) = _
    rw [idx1_eq j, lift_row1 hR k, v7_apply]
    rfl
  exact congrArg (fun f => Finset.fold max Cert.Spec.negInf f (Finset.univ : Finset (Fin 100000))) hf

/-- The maximum the log-softmax subtracts. -/
theorem call0_v2_apply (j : S1.Idx) :
    val_main_call0_v2 (F := Ideal) x0 x1 x2 x3 x4 j
      = Cert.Spec.refM (Cert.Spec.scores x0 x2 (Cert.Spec.proj x1 x4) x3) := by
  unfold Cert.Spec.refM
  rw [val_main_call0_v2_apply, val_main_call0_v1_apply, val_main_call0_cst_0_apply, call0_v0_apply, Ideal.ofBits_def,
    Ideal.maximumf_def]

/-- The shifted score. -/
theorem call0_v5_apply (r : Fin 100000) :
    val_main_call0_v5 (F := Ideal) x0 x1 x2 x3 x4 (ix2 (0 : Fin 1) r)
      = Cert.Spec.scores x0 x2 (Cert.Spec.proj x1 x4) x3 r
        - Cert.Spec.refM (Cert.Spec.scores x0 x2 (Cert.Spec.proj x1 x4) x3) := by
  rw [val_main_call0_v5_apply, val_main_call0_v4_apply, val_main_call0_v3_apply, call0_v2_apply, v7_apply, Ideal.subf_def]

/-- The sum of the exponentials of the shifted scores, from zero. -/
theorem call0_v7_apply (j : S1.Idx) :
    val_main_call0_v7 (F := Ideal) x0 x1 x2 x3 x4 j
      = Cert.Spec.refL (Cert.Spec.scores x0 x2 (Cert.Spec.proj x1 x4) x3) := by
  unfold Cert.Spec.refL
  rw [val_main_call0_v7_apply, val_main_call0_cst_1_apply, Ideal.ofBits_def]
  refine congrArg (fun s => Cert.Spec.zero + s) (Finset.sum_congr rfl fun k _ => ?_)
  rw [idx_c7, val_main_call0_v6_apply, call0_v5_apply, Ideal.hostUnary_exp_def]

/-! ## The two results -/

/-- The first result: the one-pass log-softmax of the scores. -/
theorem ref_alpha (r : Fin 100000) :
    val_main_v8 (F := Ideal) x0 x1 x2 x3 x4 (ix2 (0 : Fin 1) r)
      = Cert.Spec.refAlpha (Cert.Spec.scores x0 x2 (Cert.Spec.proj x1 x4) x3) r := by
  unfold Cert.Spec.refAlpha
  rw [val_main_v8_apply, call0_v5_apply, val_main_call0_v10_apply, val_main_call0_v9_apply, val_main_call0_v8_apply,
    call0_v7_apply, Ideal.subf_def, Ideal.hostUnary_log_def]

/-- The second result: the rows weighted by the log-softmax and summed. -/
theorem ref_ct (h : Fin 256) :
    val_main_v9 (F := Ideal) x0 x1 x2 x3 x4 (ix2 (0 : Fin 1) h)
      = Cert.Spec.refCt (Cert.Spec.scores x0 x2 (Cert.Spec.proj x1 x4) x3) (fun r h => x0 (ix2 r h)) h := by
  unfold Cert.Spec.refCt
  rw [val_main_v9_apply]
  refine Finset.sum_congr rfl fun k _ => ?_
  rw [lidx_v9, ridx_v9, ref_alpha]

end Cert.RefSide

end
-- ==== Proof.RefRun.lean ====
/-
  The reference program's run. Its @main is a straight line of 24 host operations (the log-softmax's operations stand
  in the place of its call), so every weakly fair execution terminates with each buffer at the fold of the operations'
  results over the launch contents. Read at the two result buffers, that fold is the composition of the operations,
  which is what the stage functions `Cert.RefRead.val_main_v8` and `Cert.RefRead.val_main_v9` of the five argument arrays
  are; the argument buffers are written by no operation and keep their contents.

  The printed @main states the log-softmax's operations at typed references; here every operation is stated at the
  buffers themselves, so the fold's value at a result buffer is the plain composition of the operations. Two spellings
  of such a value are compared as compositions of array operations, never element by element: the reduce with a
  maximum body is a fold over a list of all 100000 indices of its operand, which must not be opened.
-/
import proofs.«159929_j42305427865723_1_alg».proof.Proof.RefRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 24 operations, in order; the log-softmax's eleven operations and four constants stand in the place of its
    call, each at the buffers the call names. -/
abbrev ops : List (HloOp τ sig (Elt F)) :=
  [ unary main_arg4 main_v0 ((transpose S256x256 [1, 0] · transposes_S256x256_S256x256_1_0) : (⟨S256x256, .f32⟩ : BufTy).Contents (Elt F) → (⟨S256x256, .f32⟩ : BufTy).Contents (Elt F)),
    binary main_arg1 main_v0 main_v1 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    binary main_arg0 main_arg2 main_v2 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v1 main_v3 (broadcastInDim S100000x256 ![0, 1] bcast_S1x256_S100000x256_0_1 : (⟨S1x256, .f32⟩ : BufTy).Contents (Elt F) → (⟨S100000x256, .f32⟩ : BufTy).Contents (Elt F)),
    binary main_v2 main_v3 main_v4 (addf : (⟨S100000x256, .f32⟩ : BufTy).Contents (Elt F) → (⟨S100000x256, .f32⟩ : BufTy).Contents (Elt F) → (⟨S100000x256, .f32⟩ : BufTy).Contents (Elt F)),
    unary main_v4 main_v5 (Host.tanh : (⟨S100000x256, .f32⟩ : BufTy).Contents (Elt F) → (⟨S100000x256, .f32⟩ : BufTy).Contents (Elt F)),
    binary main_v5 main_arg3 main_v6 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    reshape main_v6 main_v7 rfl shapeCasts_S100000x1_S1x100000,
    nullary main_call0_cst (constant S_ .f32 0xFF800000#32 : (⟨S_, .f32⟩ : BufTy).Contents (Elt F)),
    binary main_v7 main_call0_cst main_call0_v0 ((fun x v => Host.reduce FloatOps.maximumf x v reducesTo_S1x100000_S1_d1 h_S_) : (⟨S1x100000, .f32⟩ : BufTy).Contents (Elt F) → (⟨S_, .f32⟩ : BufTy).Contents (Elt F) → (⟨S1, .f32⟩ : BufTy).Contents (Elt F)),
    nullary main_call0_cst_0 (constant S_ .f32 0xFF800000#32 : (⟨S_, .f32⟩ : BufTy).Contents (Elt F)),
    unary main_call0_cst_0 main_call0_v1 (broadcastInDim S1 ![] bcast_S_S1 : (⟨S_, .f32⟩ : BufTy).Contents (Elt F) → (⟨S1, .f32⟩ : BufTy).Contents (Elt F)),
    binary main_call0_v1 main_call0_v0 main_call0_v2 (maximumf : (⟨S1, .f32⟩ : BufTy).Contents (Elt F) → (⟨S1, .f32⟩ : BufTy).Contents (Elt F) → (⟨S1, .f32⟩ : BufTy).Contents (Elt F)),
    unary main_call0_v2 main_call0_v3 (broadcastInDim S1x1 ![0] bcast_S1_S1x1_0 : (⟨S1, .f32⟩ : BufTy).Contents (Elt F) → (⟨S1x1, .f32⟩ : BufTy).Contents (Elt F)),
    unary main_call0_v3 main_call0_v4 (broadcastInDim S1x100000 ![0, 1] bcast_S1x1_S1x100000_0_1 : (⟨S1x1, .f32⟩ : BufTy).Contents (Elt F) → (⟨S1x100000, .f32⟩ : BufTy).Contents (Elt F)),
    binary main_v7 main_call0_v4 main_call0_v5 (subf : (⟨S1x100000, .f32⟩ : BufTy).Contents (Elt F) → (⟨S1x100000, .f32⟩ : BufTy).Contents (Elt F) → (⟨S1x100000, .f32⟩ : BufTy).Contents (Elt F)),
    unary main_call0_v5 main_call0_v6 (Host.exp : (⟨S1x100000, .f32⟩ : BufTy).Contents (Elt F) → (⟨S1x100000, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S1x100000_S1_d1 h_S_) : (⟨S1x100000, .f32⟩ : BufTy).Contents (Elt F) → (⟨S_, .f32⟩ : BufTy).Contents (Elt F) → (⟨S1, .f32⟩ : BufTy).Contents (Elt F)),
    unary main_call0_v7 main_call0_v8 (broadcastInDim S1x1 ![0] bcast_S1_S1x1_0 : (⟨S1, .f32⟩ : BufTy).Contents (Elt F) → (⟨S1x1, .f32⟩ : BufTy).Contents (Elt F)),
    unary main_call0_v8 main_call0_v9 (Host.log : (⟨S1x1, .f32⟩ : BufTy).Contents (Elt F) → (⟨S1x1, .f32⟩ : BufTy).Contents (Elt F)),
    unary main_call0_v9 main_call0_v10 (broadcastInDim S1x100000 ![0, 1] bcast_S1x1_S1x100000_0_1 : (⟨S1x1, .f32⟩ : BufTy).Contents (Elt F) → (⟨S1x100000, .f32⟩ : BufTy).Contents (Elt F)),
    binary main_call0_v5 main_call0_v10 main_v8 (subf : (⟨S1x100000, .f32⟩ : BufTy).Contents (Elt F) → (⟨S1x100000, .f32⟩ : BufTy).Contents (Elt F) → (⟨S1x100000, .f32⟩ : BufTy).Contents (Elt F)),
    binary main_v8 main_arg0 main_v9 ((fun l r => Host.dotGeneral dot_S1x100000_S100000x256_S1x256_1_0_0_1_n_n none l r) : (⟨S1x100000, .f32⟩ : BufTy).Contents (Elt F) → (⟨S100000x256, .f32⟩ : BufTy).Contents (Elt F) → (⟨S1x256, .f32⟩ : BufTy).Contents (Elt F)) ]

/- Two spellings of a value are compared below without ever opening the reduce (a fold over a list of all 100000 indices
   of its operand) or going from an array operation to its elements. -/
attribute [local irreducible] Host.reduce
attribute [local irreducible] Host.reduceAdd
attribute [local irreducible] shapeCast
attribute [local irreducible] broadcastInDim
attribute [local irreducible] transpose
attribute [local irreducible] subf
attribute [local irreducible] addf
attribute [local irreducible] maximumf
attribute [local irreducible] Host.tanh
attribute [local irreducible] Host.exp
attribute [local irreducible] Host.log

/-- The printed @main is this line of operations: the log-softmax's operations are stated there at typed references,
    which move contents to a buffer's own type along an equation that holds by computation. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., binary_bufs_sub .., unary_bufs_sub .., binary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub ..⟩

set_option maxHeartbeats 2000000 in
/-- On every device, for any float values, from any memory with zero counters: every weakly fair execution of
    @main terminates with the two results at the stage functions of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = Cert.RefRead.val_main_v8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = Cert.RefRead.val_main_v9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v8).trans (by after_results <;> rfl),
      (h c main_v9).trans (by after_results <;> rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl)⟩)
    (run_seq scopedRefs_eq scopedSems_eq defs main (fun _ => ops) main_eq (fun _ => ops_sub) m ρ)

end Cert.RefRun

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Algebra.lean ====
/-
  The real-number algebra that joins the streaming log-sum-exp to the one-pass log-softmax.

  All scores are real. The streaming pass carries a real bound `μ` (after the first block), the sum
  `∑ exp (α r − μ)` over the rows seen so far and two linear sums. For any real bound,
  `μ + log ∑ᵣ exp (α r − μ) = log ∑ᵣ exp (α r)`, so the streaming value `m + log l` and the one-pass value
  `M + log L` are the same real, whatever the two bounds are.
-/
import proofs.«159929_j42305427865723_1_alg».proof.Proof.Spec
import proofs.«159929_j42305427865723_1_alg».proof.Proof.LibRealSums
import Idealize.ShloMosaic.PureOps.Ideal.Laws
import Mathlib.Analysis.SpecialFunctions.Log.Basic

noncomputable section

open scoped BigOperators

namespace Cert.Algebra

open Idealize.ShloMosaic Idealize.ShloMosaic.ValueIdx Cert.Spec Cert.ScaledSum

/-! ## The two constants -/

/-- The f32 pattern of the negative infinity denotes `⊥`. -/
theorem negInf_eq : negInf = (⊥ : EReal) := by
  show Ideal.ofBits .f32 0xFF800000#32 = ⊥
  simp [Ideal.ofBits, Ideal.ieee]

/-- The f32 zero pattern denotes `0`. -/
theorem zero_eq : zero = (0 : EReal) := Ideal.ofBits_zero_f32

/-! ## A maximum of finitely many reals, folded from `⊥` -/

/-- Folding `max` from `⊥` over reals gives `⊥` on the empty set and a real otherwise. -/
theorem fold_max_bot_or_real {ι : Type*} (β : ι → ℝ) (s : Finset ι) :
    (s = ∅ ∧ s.fold max (⊥ : EReal) (fun p => (β p : EReal)) = ⊥) ∨
      ∃ μ : ℝ, s.fold max (⊥ : EReal) (fun p => (β p : EReal)) = (μ : EReal) := by
  classical
  induction s using Finset.induction_on with
  | empty => exact Or.inl ⟨rfl, Finset.fold_empty⟩
  | insert a s ha ih =>
    right
    rw [Finset.fold_insert ha]
    rcases ih with ⟨_, h⟩ | ⟨μ, h⟩
    · exact ⟨β a, by rw [h]; exact max_bot_right _⟩
    · exact ⟨max (β a) μ, by rw [h, coe_max]⟩

/-- Over a nonempty finite index type the fold is a real. -/
theorem fold_max_univ_real {ι : Type*} [Fintype ι] [Nonempty ι] (β : ι → ℝ) :
    ∃ μ : ℝ, (Finset.univ : Finset ι).fold max (⊥ : EReal) (fun p => (β p : EReal)) = (μ : EReal) := by
  rcases fold_max_bot_or_real β Finset.univ with ⟨h, _⟩ | h
  · exact absurd h Finset.univ_nonempty.ne_empty
  · exact h

instance : Nonempty (Fin 5000) := ⟨⟨0, by omega⟩⟩
instance : Nonempty (Fin 100000) := ⟨⟨0, by omega⟩⟩

/-! ## The key law -/

/-- A nonempty sum of exponentials is positive. -/
theorem sum_exp_pos {ι : Type*} [Fintype ι] [Nonempty ι] (β : ι → ℝ) : 0 < ∑ r, Real.exp (β r) :=
  Finset.sum_pos (fun r _ => Real.exp_pos (β r)) Finset.univ_nonempty

/-- Shifting by any real bound does not change the log-sum-exp. -/
theorem lse_shift {ι : Type*} [Fintype ι] [Nonempty ι] (β : ι → ℝ) (μ : ℝ) :
    μ + Real.log (∑ r, Real.exp (β r - μ)) = Real.log (∑ r, Real.exp (β r)) := by
  have h1 : (∑ r, Real.exp (β r - μ)) = (∑ r, Real.exp (β r)) * Real.exp (-μ) := by
    rw [Finset.sum_mul]
    exact Finset.sum_congr rfl fun r _ => by rw [← Real.exp_add, sub_eq_add_neg]
  rw [h1, Real.log_mul (sum_exp_pos β).ne' (Real.exp_pos _).ne', Real.log_exp]
  ring

/-! ## Sums over the rows of the first `n` blocks -/

/-- A function of the rows, continued by zero past the last row. -/
def ext (f : Fin 100000 → ℝ) (i : ℕ) : ℝ := if h : i < 100000 then f ⟨i, h⟩ else 0

theorem ext_lt (f : Fin 100000 → ℝ) (i : ℕ) (h : i < 100000) : ext f i = f ⟨i, h⟩ := dif_pos h

/-- The sum of `f` over the rows of the first `n` blocks (rows `0 … 5000·n − 1`). -/
def pre (f : Fin 100000 → ℝ) (n : ℕ) : ℝ := ∑ i ∈ Finset.range (5000 * n), ext f i

theorem pre_zero (f : Fin 100000 → ℝ) : pre f 0 = 0 := by
  unfold pre
  rw [Nat.mul_zero, Finset.range_zero, Finset.sum_empty]

/-- The rows of block `n`, counted from the block's first row. -/
theorem sum_block (f : Fin 100000 → ℝ) (n : ℕ) (h : n < 20) :
    (∑ x ∈ Finset.range 5000, ext f (5000 * n + x)) = ∑ p : Fin 5000, f (rowOf ⟨n, h⟩ p) := by
  rw [Finset.sum_range]
  refine Finset.sum_congr rfl fun p _ => ?_
  have hlt : 5000 * n + p.val < 100000 := by have := p.isLt; omega
  rw [ext_lt f _ hlt]
  rfl

/-- One more block adds the sum over its 5000 rows. -/
theorem pre_succ (f : Fin 100000 → ℝ) (n : ℕ) (h : n < 20) :
    pre f (n + 1) = pre f n + ∑ p : Fin 5000, f (rowOf ⟨n, h⟩ p) := by
  have e1 : 5000 * (n + 1) = 5000 * n + 5000 := by omega
  unfold pre
  rw [e1, Finset.sum_range_add, sum_block f n h]

/-- All twenty blocks are all the rows. -/
theorem pre_all (f : Fin 100000 → ℝ) : pre f 20 = ∑ r, f r := by
  have e1 : 5000 * 20 = 100000 := by norm_num
  unfold pre
  rw [e1, Finset.sum_range]
  exact Finset.sum_congr rfl fun r _ => ext_lt f r.val r.isLt

/-- A constant factor goes through the sum. -/
theorem pre_mul (f : Fin 100000 → ℝ) (c : ℝ) (n : ℕ) : pre f n * c = pre (fun r => f r * c) n := by
  unfold pre
  rw [Finset.sum_mul]
  refine Finset.sum_congr rfl fun i _ => ?_
  unfold ext
  split_ifs
  · rfl
  · exact zero_mul c

/-! ## One block on real data -/

/-- The block's own bound is a real `μb`, and the new bound is the larger of the old one and `μb`. -/
theorem stepM_eq (β : Fin 5000 → ℝ) :
    ∃ μb : ℝ, ∀ m0 : EReal, stepM (fun p => (β p : EReal)) m0 = max m0 (μb : EReal) := by
  obtain ⟨μb, h⟩ := fold_max_univ_real β
  refine ⟨μb, fun m0 => ?_⟩
  unfold stepM
  rw [negInf_eq, h]

/-- The exponential of a difference of reals. -/
theorem exp_coe_sub (a b : ℝ) : Ideal.exp ((a : EReal) - (b : EReal)) = ((Real.exp (a - b) : ℝ) : EReal) := by
  rw [← EReal.coe_sub, Ideal.exp_coe]

/-- The sum of the block's shifted exponentials. -/
theorem sum_exp_coe (β : Fin 5000 → ℝ) (μ' : ℝ) :
    (∑ p : Fin 5000, Ideal.exp ((β p : EReal) - (μ' : EReal))) = ((∑ p, Real.exp (β p - μ') : ℝ) : EReal) := by
  rw [← coe_sum]
  exact Finset.sum_congr rfl fun p _ => exp_coe_sub (β p) μ'

/-- The rescaled sum after a block, from a real bound `μ` to the real bound `μ'`. -/
theorem stepL_coe (β : Fin 5000 → ℝ) (μ μ' L : ℝ) (hM : stepM (fun p => (β p : EReal)) (μ : EReal) = (μ' : EReal)) :
    stepL (fun p => (β p : EReal)) (μ : EReal) (L : EReal) =
      ((L * Real.exp (μ - μ') + ∑ p, Real.exp (β p - μ') : ℝ) : EReal) := by
  unfold stepL
  rw [hM, sum_exp_coe, exp_coe_sub, ← EReal.coe_mul, ← EReal.coe_add]

/-- The rescaled sum after the first block: the bound starts at `⊥` and the sum at `0`. -/
theorem stepL_bot (β : Fin 5000 → ℝ) (μ' : ℝ) (hM : stepM (fun p => (β p : EReal)) (⊥ : EReal) = (μ' : EReal)) :
    stepL (fun p => (β p : EReal)) (⊥ : EReal) (0 : EReal) = ((∑ p, Real.exp (β p - μ') : ℝ) : EReal) := by
  unfold stepL
  rw [hM, sum_exp_coe, zero_mul, zero_add]

/-- The score-weighted column sum after a block. -/
theorem stepS1_coe (β : Fin 5000 → ℝ) (χ : Fin 5000 → Fin 256 → ℝ) (s : Fin 256 → EReal) (h : Fin 256) (S : ℝ)
    (hs : s h = (S : EReal)) :
    stepS1 (fun p => (β p : EReal)) (fun p h => (χ p h : EReal)) s h = ((S + ∑ p, β p * χ p h : ℝ) : EReal) := by
  unfold stepS1
  rw [hs, EReal.coe_add, ← coe_sum]
  exact congrArg (fun z => (S : EReal) + z) (Finset.sum_congr rfl fun p _ => (EReal.coe_mul _ _).symm)

/-- The plain column sum after a block. -/
theorem stepS2_coe (χ : Fin 5000 → Fin 256 → ℝ) (s : Fin 256 → EReal) (h : Fin 256) (S : ℝ)
    (hs : s h = (S : EReal)) :
    stepS2 (fun p h => (χ p h : EReal)) s h = ((S + ∑ p, χ p h : ℝ) : EReal) := by
  unfold stepS2
  rw [hs, EReal.coe_add, ← coe_sum]

/-! ## The carried quantities after `n` blocks -/

section Stream

variable (α : Fin 100000 → ℝ) (ξ : Fin 100000 → Fin 256 → ℝ)

/-- After `n ≥ 1` blocks: the bound is a real `μ`, the rescaled sum is `∑ exp (α r − μ)` and the two linear sums
    are `∑ α r · ξ r h` and `∑ ξ r h`, all over the rows of the first `n` blocks. -/
def Inv (n : ℕ) (σ : St) : Prop :=
  ∃ μ : ℝ, σ.m = (μ : EReal) ∧ σ.l = ((pre (fun r => Real.exp (α r - μ)) n : ℝ) : EReal) ∧
    (∀ h, σ.s1 h = ((pre (fun r => α r * ξ r h) n : ℝ) : EReal)) ∧
    ∀ h, σ.s2 h = ((pre (fun r => ξ r h) n : ℝ) : EReal)

/-- Moving the bound from `μ` to `μ'` rescales every term by `exp (μ − μ')`. -/
theorem pre_rescale (μ μ' : ℝ) (n : ℕ) :
    pre (fun r => Real.exp (α r - μ)) n * Real.exp (μ - μ') = pre (fun r => Real.exp (α r - μ')) n := by
  rw [pre_mul]
  refine congrArg (fun f => pre f n) (funext fun r => ?_)
  rw [← Real.exp_add]
  exact congrArg Real.exp (by ring)

/-- The first block, from the initial state. -/
theorem inv_first (h0 : 0 < 20) :
    Inv α ξ 1 (step (fun r => (α r : EReal)) (fun r h => (ξ r h : EReal)) ⟨0, h0⟩ init) := by
  obtain ⟨μb, hM⟩ := stepM_eq (fun p => α (rowOf ⟨0, h0⟩ p))
  have hM' : stepM (fun p => ((α (rowOf ⟨0, h0⟩ p) : ℝ) : EReal)) (⊥ : EReal) = (μb : EReal) := by
    rw [hM]; exact max_bot_left _
  have hz : zero = ((0 : ℝ) : EReal) := zero_eq
  refine ⟨μb, ?_, ?_, ?_, ?_⟩
  · show stepM (fun p => ((α (rowOf ⟨0, h0⟩ p) : ℝ) : EReal)) negInf = _
    rw [negInf_eq]; exact hM'
  · show stepL (fun p => ((α (rowOf ⟨0, h0⟩ p) : ℝ) : EReal)) negInf zero = _
    rw [negInf_eq, zero_eq, stepL_bot _ _ hM', pre_succ _ 0 h0, pre_zero, zero_add]
  · intro h
    show stepS1 (fun p => ((α (rowOf ⟨0, h0⟩ p) : ℝ) : EReal)) (fun p h => ((ξ (rowOf ⟨0, h0⟩ p) h : ℝ) : EReal))
      (fun _ => zero) h = _
    rw [stepS1_coe _ _ _ h 0 hz, pre_succ _ 0 h0, pre_zero]
  · intro h
    show stepS2 (fun p h => ((ξ (rowOf ⟨0, h0⟩ p) h : ℝ) : EReal)) (fun _ => zero) h = _
    rw [stepS2_coe _ _ h 0 hz, pre_succ _ 0 h0, pre_zero]

/-- A later block, from a state with a real bound. -/
theorem inv_step (n : ℕ) (hn : n < 20) (σ : St) (hσ : Inv α ξ n σ) :
    Inv α ξ (n + 1) (step (fun r => (α r : EReal)) (fun r h => (ξ r h : EReal)) ⟨n, hn⟩ σ) := by
  obtain ⟨μ, hm, hl, h1, h2⟩ := hσ
  obtain ⟨μb, hM⟩ := stepM_eq (fun p => α (rowOf ⟨n, hn⟩ p))
  have hM' : stepM (fun p => ((α (rowOf ⟨n, hn⟩ p) : ℝ) : EReal)) (μ : EReal) = ((max μ μb : ℝ) : EReal) := by
    rw [hM, coe_max]
  refine ⟨max μ μb, ?_, ?_, ?_, ?_⟩
  · show stepM (fun p => ((α (rowOf ⟨n, hn⟩ p) : ℝ) : EReal)) σ.m = _
    rw [hm]; exact hM'
  · show stepL (fun p => ((α (rowOf ⟨n, hn⟩ p) : ℝ) : EReal)) σ.m σ.l = _
    rw [hm, hl, stepL_coe _ _ _ _ hM', pre_rescale, pre_succ _ n hn]
  · intro h
    show stepS1 (fun p => ((α (rowOf ⟨n, hn⟩ p) : ℝ) : EReal)) (fun p h => ((ξ (rowOf ⟨n, hn⟩ p) h : ℝ) : EReal))
      σ.s1 h = _
    rw [stepS1_coe _ _ _ h _ (h1 h), pre_succ _ n hn]
  · intro h
    show stepS2 (fun p h => ((ξ (rowOf ⟨n, hn⟩ p) h : ℝ) : EReal)) σ.s2 h = _
    rw [stepS2_coe _ _ h _ (h2 h), pre_succ _ n hn]

/-- The invariant holds after every block. -/
theorem inv_stAfter (n : ℕ) (hn : n < 20) :
    Inv α ξ (n + 1) (stAfter (fun r => (α r : EReal)) (fun r h => (ξ r h : EReal)) n hn) := by
  induction n with
  | zero => exact inv_first α ξ hn
  | succ n ih => exact inv_step α ξ (n + 1) hn _ (ih (Nat.lt_of_succ_lt hn))

end Stream

/-! ## The two log-sum-exps, and the results -/

section Final

variable (α : Fin 100000 → ℝ) (ξ : Fin 100000 → Fin 256 → ℝ)

/-- The streaming log-sum-exp is the real `log ∑ exp (α r)`. -/
theorem kLse_coe :
    kLse (fun r => (α r : EReal)) (fun r h => (ξ r h : EReal)) = ((Real.log (∑ r, Real.exp (α r)) : ℝ) : EReal) := by
  obtain ⟨μ, hm, hl, -, -⟩ := inv_stAfter α ξ 19 (by decide)
  unfold kLse
  rw [hm, hl, pre_all, Ideal.log_coe, if_neg (not_le.2 (sum_exp_pos _)), ← EReal.coe_add, lse_shift]

/-- The one-pass bound is a real. -/
theorem refM_coe : ∃ M : ℝ, refM (fun r => (α r : EReal)) = (M : EReal) := by
  obtain ⟨M, hM⟩ := fold_max_univ_real α
  refine ⟨M, ?_⟩
  unfold refM
  rw [negInf_eq, hM]
  exact max_bot_left _

/-- The one-pass log-softmax is the real `α r − log ∑ exp (α s)`. -/
theorem refAlpha_coe (r : Fin 100000) :
    refAlpha (fun r => (α r : EReal)) r = ((α r - Real.log (∑ s, Real.exp (α s)) : ℝ) : EReal) := by
  obtain ⟨M, hM⟩ := refM_coe α
  have hL : refL (fun r => (α r : EReal)) = ((∑ s, Real.exp (α s - M) : ℝ) : EReal) := by
    unfold refL
    rw [zero_eq, zero_add, hM, ← coe_sum]
    exact Finset.sum_congr rfl fun s _ => exp_coe_sub (α s) M
  unfold refAlpha
  rw [hL, hM, Ideal.log_coe, if_neg (not_le.2 (sum_exp_pos _)), ← EReal.coe_sub, ← EReal.coe_sub, ← lse_shift α M]
  refine congrArg Real.toEReal ?_
  ring

/-- The streaming log-softmax is the one-pass log-softmax. -/
theorem alpha_eq (r : Fin 100000) :
    kAlpha (fun r => (α r : EReal)) (fun r h => (ξ r h : EReal)) r = refAlpha (fun r => (α r : EReal)) r := by
  unfold kAlpha
  rw [kLse_coe, refAlpha_coe, EReal.coe_sub]

/-- The streaming weighted sum `∑ α·ξ − lse · ∑ ξ` is the sum of the rows weighted by the log-softmax. -/
theorem ct_eq (h : Fin 256) :
    kCt (fun r => (α r : EReal)) (fun r h => (ξ r h : EReal)) h =
      refCt (fun r => (α r : EReal)) (fun r h => (ξ r h : EReal)) h := by
  obtain ⟨μ, -, -, h1, h2⟩ := inv_stAfter α ξ 19 (by decide)
  have e : ∀ r, refAlpha (fun r => (α r : EReal)) r * (ξ r h : EReal) =
      (((α r - Real.log (∑ s, Real.exp (α s))) * ξ r h : ℝ) : EReal) := fun r => by
    rw [refAlpha_coe, ← EReal.coe_mul]
  unfold kCt refCt
  rw [kLse_coe, h1, h2, pre_all, pre_all, ← EReal.coe_mul, ← EReal.coe_sub, Finset.sum_congr rfl fun r _ => e r, coe_sum]
  refine congrArg Real.toEReal ?_
  simp only [sub_mul, Finset.sum_sub_distrib, Finset.mul_sum]

end Final

/-! ## Finiteness of the projected context and of a score -/

/-- A product of two reals is a real. -/
theorem mul_real {a b : EReal} (ha : ∃ y : ℝ, a = (y : EReal)) (hb : ∃ y : ℝ, b = (y : EReal)) :
    ∃ y : ℝ, a * b = (y : EReal) := by
  obtain ⟨ya, rfl⟩ := ha
  obtain ⟨yb, rfl⟩ := hb
  exact ⟨ya * yb, (EReal.coe_mul ya yb).symm⟩

/-- The projected context of finite data is finite. -/
theorem proj_real (hc : (⟨2, ![1, 256]⟩ : Shape).Idx → EReal) (W1 : (⟨2, ![256, 256]⟩ : Shape).Idx → EReal)
    (hhc : ∀ i, ∃ y : ℝ, hc i = (y : EReal)) (hW : ∀ i, ∃ y : ℝ, W1 i = (y : EReal)) (k : Fin 256) :
    ∃ y : ℝ, proj hc W1 k = (y : EReal) := by
  unfold proj
  exact exists_real_sum _ _ fun j => mul_real (hhc _) (hW _)

/-- The score of a finite row against finite weights is finite. -/
theorem score_real (xr : Fin 256 → EReal) (Wm : (⟨2, ![256, 256]⟩ : Shape).Idx → EReal) (p : Fin 256 → EReal)
    (V : (⟨2, ![256, 1]⟩ : Shape).Idx → EReal)
    (hx : ∀ j, ∃ y : ℝ, xr j = (y : EReal)) (hWm : ∀ i, ∃ y : ℝ, Wm i = (y : EReal))
    (hp : ∀ k, ∃ y : ℝ, p k = (y : EReal)) (hV : ∀ i, ∃ y : ℝ, V i = (y : EReal)) :
    ∃ y : ℝ, score xr Wm p V = (y : EReal) := by
  unfold score
  refine exists_real_sum _ _ fun k => mul_real ?_ (hV _)
  obtain ⟨s, hs⟩ := exists_real_sum Finset.univ (fun j => xr j * Wm (ix2 j k)) fun j => mul_real (hx j) (hWm _)
  obtain ⟨q, hq⟩ := hp k
  exact ⟨Real.tanh (s + q), by rw [hs, hq, ← EReal.coe_add, Ideal.tanh_coe]⟩

/-! ## The two laws for arrays that are only known to be finite -/

/-- The two laws for any scores and rows that are coercions of reals. -/
theorem laws_of_real (a : Fin 100000 → EReal) (x : Fin 100000 → Fin 256 → EReal) (α : Fin 100000 → ℝ)
    (ξ : Fin 100000 → Fin 256 → ℝ) (ha : a = fun r => (α r : EReal)) (hx : x = fun r h => (ξ r h : EReal)) :
    (∀ r, kAlpha a x r = refAlpha a r) ∧ ∀ h, kCt a x h = refCt a x h := by
  subst ha hx
  exact ⟨alpha_eq α ξ, ct_eq α ξ⟩

section Bridge

variable (X : (⟨2, ![100000, 256]⟩ : Shape).Idx → EReal) (hc : (⟨2, ![1, 256]⟩ : Shape).Idx → EReal)
  (Wm : (⟨2, ![256, 256]⟩ : Shape).Idx → EReal) (Vv : (⟨2, ![256, 1]⟩ : Shape).Idx → EReal)
  (W1 : (⟨2, ![256, 256]⟩ : Shape).Idx → EReal)

/-- Finite arrays have real scores and real rows. -/
theorem exists_real_data (hX : ∀ i, ∃ y : ℝ, X i = (y : EReal)) (hhc : ∀ i, ∃ y : ℝ, hc i = (y : EReal))
    (hWm : ∀ i, ∃ y : ℝ, Wm i = (y : EReal)) (hV : ∀ i, ∃ y : ℝ, Vv i = (y : EReal))
    (hW1 : ∀ i, ∃ y : ℝ, W1 i = (y : EReal)) :
    ∃ (α : Fin 100000 → ℝ) (ξ : Fin 100000 → Fin 256 → ℝ),
      scores X Wm (proj hc W1) Vv = (fun r => (α r : EReal)) ∧
        (fun (r : Fin 100000) (h : Fin 256) => X (ix2 r h)) = fun r h => (ξ r h : EReal) := by
  have hs : ∀ r, ∃ y : ℝ, scores X Wm (proj hc W1) Vv r = (y : EReal) := fun r =>
    score_real (fun j => X (ix2 r j)) Wm (proj hc W1) Vv (fun j => hX _) hWm (fun k => proj_real hc W1 hhc hW1 k) hV
  choose α hα using hs
  choose ξ' hξ using hX
  exact ⟨α, fun r h => ξ' (ix2 r h), funext hα, funext fun r => funext fun h => hξ _⟩

/-- The streaming log-softmax of the scores of finite arrays is the one-pass log-softmax. -/
theorem bridge_alpha (hX : ∀ i, ∃ y : ℝ, X i = (y : EReal)) (hhc : ∀ i, ∃ y : ℝ, hc i = (y : EReal))
    (hWm : ∀ i, ∃ y : ℝ, Wm i = (y : EReal)) (hV : ∀ i, ∃ y : ℝ, Vv i = (y : EReal))
    (hW1 : ∀ i, ∃ y : ℝ, W1 i = (y : EReal)) (r : Fin 100000) :
    kAlpha (scores X Wm (proj hc W1) Vv) (fun (r : Fin 100000) (h : Fin 256) => X (ix2 r h)) r =
      refAlpha (scores X Wm (proj hc W1) Vv) r := by
  obtain ⟨α, ξ, ha, hx⟩ := exists_real_data X hc Wm Vv W1 hX hhc hWm hV hW1
  exact (laws_of_real _ _ α ξ ha hx).1 r

/-- The streaming weighted sum of the rows of finite arrays is the one-pass weighted sum. -/
theorem bridge_ct (hX : ∀ i, ∃ y : ℝ, X i = (y : EReal)) (hhc : ∀ i, ∃ y : ℝ, hc i = (y : EReal))
    (hWm : ∀ i, ∃ y : ℝ, Wm i = (y : EReal)) (hV : ∀ i, ∃ y : ℝ, Vv i = (y : EReal))
    (hW1 : ∀ i, ∃ y : ℝ, W1 i = (y : EReal)) (h : Fin 256) :
    kCt (scores X Wm (proj hc W1) Vv) (fun (r : Fin 100000) (h : Fin 256) => X (ix2 r h)) h =
      refCt (scores X Wm (proj hc W1) Vv) (fun (r : Fin 100000) (h : Fin 256) => X (ix2 r h)) h := by
  obtain ⟨α, ξ, ha, hx⟩ := exists_real_data X hc Wm Vv W1 hX hhc hWm hV hW1
  exact (laws_of_real _ _ α ξ ha hx).2 h

end Bridge

end Cert.Algebra

end
-- ==== Proof.Finite.lean ====
/-
  From the precondition to real entries. For each argument array the precondition says that the elementwise test
  |x| < +∞, reduced by `and` over all axes from the constant 1, comes out 1. Then every element passes the test, and an
  extended real whose absolute value max x (−x) is below +∞ is neither +∞ nor −∞: it is a real.
-/
import proofs.«159929_j42305427865723_1_alg».proof.Defs
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Idealize.SL.Sem

/-- The scalar shape has one index. -/
instance : Subsingleton (⟨0, ![]⟩ : Shape).Idx := ⟨fun a b => funext fun d => d.elim0⟩

/-- The f32 pattern 0x7F800000 denotes +∞. -/
theorem posInf_eq : Ideal.ofBits .f32 0x7F800000#32 = (⊤ : EReal) := by simp [Ideal.ofBits, Ideal.ieee]

/-- An extended real whose absolute value max x (−x) is below +∞ is a real. -/
theorem real_of_abs_lt_top (x : EReal) (h : max x (-x) < ⊤) : ∃ y : ℝ, x = (y : EReal) := by
  induction x using EReal.rec with
  | bot => simp at h
  | coe y => exact ⟨y, rfl⟩
  | top => simp at h

/-- An array whose test |x| < +∞, reduced by `and` over all axes, is 1 has only real entries. -/
theorem real_of_all {s : Shape} {axes : List (Fin s.rank)} (x : FVec Ideal s .f32)
    (init : (⟨0, ![]⟩ : Shape).Idx → BitVec 1)
    (bc : (⟨0, ![]⟩ : Shape).BroadcastsInDim s (![] : Fin 0 → Fin s.rank))
    (h : s.ReducesTo axes (⟨0, ![]⟩ : Shape)) (hu : 0 < (⟨0, ![]⟩ : Shape).numel) (j : (⟨0, ![]⟩ : Shape).Idx)
    (e : Host.reduce IntOp.andi
        (cmpf .olt (Host.absf x) (broadcastInDim s ![] bc (constant (F := Ideal) (⟨0, ![]⟩ : Shape) .f32 0x7F800000#32)))
        init h hu j = 1#1)
    (i : s.Idx) : ∃ y : ℝ, x i = (y : EReal) := by
  have e1 := Host.reduce_andi_all _ init h hu j e i
  have hb : broadcastInDim s ![] bc (constant (F := Ideal) (⟨0, ![]⟩ : Shape) .f32 0x7F800000#32) i = (⊤ : EReal) :=
    (broadcastInDim_apply _ bc _ i ix0 (fun a => a.elim0)).trans posInf_eq
  have e2 : Ideal.cmp .olt (max (x i) (-(x i))) ⊤ = 1#1 := by rw [← hb]; exact e1
  have e3 : BitVec.ofBool (decide (max (x i) (-(x i)) < ⊤)) = 1#1 := e2
  refine real_of_abs_lt_top (x i) ?_
  by_contra hn
  rw [decide_eq_false hn] at e3
  exact absurd e3 (by decide)

/-- Under the precondition every entry of every argument array is a real. -/
theorem of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ y : ℝ, m ((c.tc : Thread Cert.KernelIdeal.nD Cert.KernelIdeal.τ).loc Cert.KernelIdeal.main_arg0) i = (y : EReal))
    ∧ (∀ i, ∃ y : ℝ, m ((c.tc : Thread Cert.KernelIdeal.nD Cert.KernelIdeal.τ).loc Cert.KernelIdeal.main_arg1) i = (y : EReal))
    ∧ (∀ i, ∃ y : ℝ, m ((c.tc : Thread Cert.KernelIdeal.nD Cert.KernelIdeal.τ).loc Cert.KernelIdeal.main_arg2) i = (y : EReal))
    ∧ (∀ i, ∃ y : ℝ, m ((c.tc : Thread Cert.KernelIdeal.nD Cert.KernelIdeal.τ).loc Cert.KernelIdeal.main_arg3) i = (y : EReal))
    ∧ (∀ i, ∃ y : ℝ, m ((c.tc : Thread Cert.KernelIdeal.nD Cert.KernelIdeal.τ).loc Cert.KernelIdeal.main_arg4) i = (y : EReal)) := by
  have h := congrFun (hpre c) ix0
  dsimp only [Cert.Pre_finite_inputs.fn, Cert.Pre_finite_inputs.fn_part1, andi] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨real_of_all _ _ _ _ _ _ h0, real_of_all _ _ _ _ _ _ h1, real_of_all _ _ _ _ _ _ h2,
    real_of_all _ _ _ _ _ _ h3, real_of_all _ _ _ _ _ _ h4⟩

end Cert.Finite

end
-- ==== Proof.lean ====
/- Additive attention with log-softmax weights: a kernel that streams the 100000 rows in 20 blocks, carrying a running
   bound, a rescaled sum of exponentials and two linear column sums, against a reference that takes the log-softmax of all
   scores at once and contracts it with the rows.

   Both programs compute the same score `a r = ∑ₖ tanh (∑ⱼ x(r,j)·Wm(j,k) + p k) · V(k)` for every row (at the ideal values a
   matrix product is the same sum whether the kernel's matrix unit or the host forms it, and a change of float format is
   the identity). The kernel ends with `a r − (m + log l)` and `∑ a·x − (m + log l)·∑ x`, the reference with
   `(a r − M) − log ∑ exp (a s − M)` and `∑ᵣ ((a r − M) − log …)·x(r,h)`. For finite inputs every score is a real, and
   then `μ + log ∑ exp (a s − μ) = log ∑ exp (a s)` for ANY real bound `μ`, so the two log-sum-exps agree whatever the
   two bounds are, and the weighted sums agree by distributivity. The precondition (every input finite) is used exactly
   there: distributivity and the exponential's functional equation are laws of the reals, not of the extended reals.

   The modules: Spec (the functions), KPay (the kernel body's arithmetic read at an index), KPieces (what each case of the
   body leaves in each buffer), KBlocks (the input blocks at a grid point), KInv (the induction over the grid), KFinal (the
   result arrays, the host's two operations after the kernel, the run), RefRead / RefRun / RefSide (the reference, operation
   by operation, its run, and its results as the one-pass functions), Algebra (the real-number laws), Finite (finite inputs
   are reals). -/
import proofs.«159929_j42305427865723_1_alg».proof.Defs
import proofs.«159929_j42305427865723_1_alg».proof.Proof.Gen.Kernel
import proofs.«159929_j42305427865723_1_alg».proof.Proof.Gen.Kernel.Frame
import proofs.«159929_j42305427865723_1_alg».proof.Proof.Gen.KernelIdeal
import proofs.«159929_j42305427865723_1_alg».proof.Proof.Gen.KernelIdeal.Frame
import proofs.«159929_j42305427865723_1_alg».proof.Proof.Gen.ReferenceIdeal
import proofs.«159929_j42305427865723_1_alg».proof.Proof.Gen.Pre_finite_inputs
import proofs.«159929_j42305427865723_1_alg».proof.Proof.KFinal
import proofs.«159929_j42305427865723_1_alg».proof.Proof.RefSide
import proofs.«159929_j42305427865723_1_alg».proof.Proof.RefRun
import proofs.«159929_j42305427865723_1_alg».proof.Proof.Algebra
import proofs.«159929_j42305427865723_1_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and keeps its arguments: the generated frame. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2) (Cert.RefRun.run (F := Ideal) m ρ)

/-- Nothing was rewritten when the kernel was read at the ideal values. -/
theorem preserves : Cert.preserves_Kernel_KernelIdeal := trivial

/-- From arguments that agree and are finite, the kernel's two results are the reference's: entry by entry the streaming
    log-softmax is the one-pass log-softmax, and the streaming weighted sum the one-pass weighted sum. -/
theorem algebraic : Cert.algebraic_KernelIdeal_ReferenceIdeal := by
  intro m ρ m' ρ' hpre hagree
  refine ⟨fun c => Cert.KernelIdeal.Final.R0 m c, fun c => Cert.KernelIdeal.Final.G5 m c,
    Cert.KernelIdeal.Final.run m ρ, ?_⟩
  refine (θ_run Cert.ReferenceIdeal.defs _ _).mono (fun _ h c => ⟨(h c).1.trans ?_, (h c).2.1.trans ?_, (h c).2.2⟩)
    (Cert.RefRun.run (F := Ideal) m' ρ')
  · obtain ⟨f0, f1, f2, f3, f4⟩ := Cert.Finite.of_pre m hpre c
    rw [(hagree c).1, (hagree c).2.1, (hagree c).2.2.1, (hagree c).2.2.2.1, (hagree c).2.2.2.2]
    funext i
    obtain ⟨q, r, rfl⟩ : ∃ (q : Fin 1) (r : Fin 100000), i = ix2 q r := ⟨i 0, i 1, eq_ix2 i⟩
    obtain rfl : q = 0 := Subsingleton.elim _ _
    rw [Cert.RefSide.ref_alpha]
    show _ = Cert.Spec.kAlpha (Cert.KernelIdeal.Inv.aK m c) (Cert.KernelIdeal.Inv.xK m c) r
    rw [Cert.KernelIdeal.Final.aK_eq m c, Cert.KernelIdeal.Final.xK_eq m c]
    exact (Cert.Algebra.bridge_alpha _ _ _ _ _ f0 f1 f2 f3 f4 r).symm
  · obtain ⟨f0, f1, f2, f3, f4⟩ := Cert.Finite.of_pre m hpre c
    rw [(hagree c).1, (hagree c).2.1, (hagree c).2.2.1, (hagree c).2.2.2.1, (hagree c).2.2.2.2]
    funext i
    obtain ⟨q, h, rfl⟩ : ∃ (q : Fin 1) (h : Fin 256), i = ix2 q h := ⟨i 0, i 1, eq_ix2 i⟩
    obtain rfl : q = 0 := Subsingleton.elim _ _
    rw [Cert.RefSide.ref_ct]
    show _ = Cert.Spec.kCt (Cert.KernelIdeal.Inv.aK m c) (Cert.KernelIdeal.Inv.xK m c) h
    rw [Cert.KernelIdeal.Final.aK_eq m c, Cert.KernelIdeal.Final.xK_eq m c]
    exact (Cert.Algebra.bridge_ct _ _ _ _ _ f0 f1 f2 f3 f4 h).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
